-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg12 : FVec F S128x128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg8 : FVec F S256x256 .f32) (main_arg9 : FVec F S256 .f32) (main_arg10 : FVec F S256x128 .f32) (main_arg11 : FVec F S128 .f32) (main_arg12 : FVec F S128x128 .f32) (main_arg13 : FVec F S128 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S256 .f32) (main_arg6 : FVec F S256x256 .f32) (main_arg7 : FVec F S256 .f32) (main_arg8 : FVec F S256x256 .f32) (main_arg9 : FVec F S256 .f32) (main_arg10 : FVec F S256x128 .f32) (main_arg11 : FVec F S128 .f32) (main_arg12 : FVec F S128x128 .f32) (main_arg13 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x128 .f32) (main_arg1 : IVec S2x640000 32) (main_arg2 : FVec F S128x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x128 .f32) (main_arg11 : FVec F S128 .f32) (main_arg12 : FVec F S128x128 .f32) (main_arg13 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x640000 : Shape := ⟨2, ![2, 640000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x128 : Shape := ⟨2, ![128, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x256 : Shape := ⟨2, ![1, 256]⟩
abbrev S100000x256 : Shape := ⟨2, ![100000, 256]⟩
abbrev S2000x128 : Shape := ⟨2, ![2000, 128]⟩
abbrev S2000x256 : Shape := ⟨2, ![2000, 256]⟩
abbrev S640000x256 : Shape := ⟨2, ![640000, 256]⟩
abbrev S1x128 : Shape := ⟨2, ![1, 128]⟩

abbrev nBuf : Space → Nat
  | .hbm => 69
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S1x640000, .i32⟩
  | .hbm, ⟨15, _⟩ => ⟨S640000, .i32⟩
  | .hbm, ⟨16, _⟩ => ⟨S1x640000, .i32⟩
  | .hbm, ⟨17, _⟩ => ⟨S640000, .i32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .f32⟩
  | .hbm, ⟨27, _⟩ => ⟨S_, .f32⟩
  | .hbm, ⟨28, _⟩ => ⟨S100000x128, .f32⟩
  | .hbm, ⟨29, _⟩ => ⟨S640000x1, .i32⟩
  | .hbm, ⟨30, _⟩ => ⟨S100000x128, .f32⟩
  | .hbm, ⟨31, _⟩ => ⟨S100000x128, .f32⟩
  | .hbm, ⟨32, _⟩ => ⟨S1x256, .f32⟩
  | .hbm, ⟨33, _⟩ => ⟨S1x256, .f32⟩
  | .hbm, ⟨34, _⟩ => ⟨S100000x256, .f32⟩
  | .hbm, ⟨35, _⟩ => ⟨S_, .i32⟩
  | .hbm, ⟨36, _⟩ => ⟨S640000, .i32⟩
  | .hbm, ⟨37, _⟩ => ⟨S640000, .i1⟩
  | .hbm, ⟨38, _⟩ => ⟨S_, .i32⟩
  | .hbm, ⟨39, _⟩ => ⟨S640000, .i32⟩
  | .hbm, ⟨40, _⟩ => ⟨S640000, .i32⟩
  | .hbm, ⟨41, _⟩ => ⟨S640000, .i32⟩
  | .hbm, ⟨42, _⟩ => ⟨S640000x1, .i32⟩
  | .hbm, ⟨43, _⟩ => ⟨S640000x256, .f32⟩
  | .hbm, ⟨44, _⟩ => ⟨S_, .f32⟩
  | .hbm, ⟨45, _⟩ => ⟨S100000x256, .f32⟩
  | .hbm, ⟨46, _⟩ => ⟨S640000x1, .i32⟩
  | .hbm, ⟨47, _⟩ => ⟨S100000x256, .f32⟩
  | .hbm, ⟨48, _⟩ => ⟨S100000x256, .f32⟩
  | .hbm, ⟨49, _⟩ => ⟨S1x256, .f32⟩
  | .hbm, ⟨50, _⟩ => ⟨S1x256, .f32⟩
  | .hbm, ⟨51, _⟩ => ⟨S100000x256, .f32⟩
  | .hbm, ⟨52, _⟩ => ⟨S_, .i32⟩
  | .hbm, ⟨53, _⟩ => ⟨S640000, .i32⟩
  | .hbm, ⟨54, _⟩ => ⟨S640000, .i1⟩
  | .hbm, ⟨55, _⟩ => ⟨S_, .i32⟩
  | .hbm, ⟨56, _⟩ => ⟨S640000, .i32⟩
  | .hbm, ⟨57, _⟩ => ⟨S640000, .i32⟩
  | .hbm, ⟨58, _⟩ => ⟨S640000, .i32⟩
  | .hbm, ⟨59, _⟩ => ⟨S640000x1, .i32⟩
  | .hbm, ⟨60, _⟩ => ⟨S640000x256, .f32⟩
  | .hbm, ⟨61, _⟩ => ⟨S_, .f32⟩
  | .hbm, ⟨62, _⟩ => ⟨S100000x256, .f32⟩
  | .hbm, ⟨63, _⟩ => ⟨S640000x1, .i32⟩
  | .hbm, ⟨64, _⟩ => ⟨S100000x256, .f32⟩
  | .hbm, ⟨65, _⟩ => ⟨S100000x256, .f32⟩
  | .hbm, ⟨66, _⟩ => ⟨S1x128, .f32⟩
  | .hbm, ⟨67, _⟩ => ⟨S1x128, .f32⟩
  | .hbm, ⟨68, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S256x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S256x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_1 : Ref sig .tc := ⟨.hbm, 35, rfl⟩
abbrev main_v18 : Ref sig .tc := ⟨.hbm, 36, rfl⟩
abbrev main_v19 : Ref sig .tc := ⟨.hbm, 37, rfl⟩
abbrev main_c_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_4 : Ref sig .tc := ⟨.hbm, 52, rfl⟩
abbrev main_v32 : Ref sig .tc := ⟨.hbm, 53, rfl⟩
abbrev main_v33 : Ref sig .tc := ⟨.hbm, 54, rfl⟩
abbrev main_c_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S2000x256_S2000x256_0_0 : ∀ a, (![0, 0] : Fin 2 → Nat) a + S2000x256.size a ≤ S2000x256.size a
  h_S2000x256 : 0 < S2000x256.numel
  bcast_S_S100000x256 : S_.BroadcastsInDim S100000x256 (![] : Fin 0 → Fin S100000x256.rank)
  shapeCasts_S2000x256_S2000x256 : S2000x256.ShapeCasts S2000x256
  shapeCasts_S128_S1x128 : S128.ShapeCasts S1x128
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S100000x256_S640000x1_S640000x256_1_0_n_n_0_1_1256_wf : GatherDims.WF S100000x256 S640000x1 S640000x256 [1] [0] [] [0] [] 1 ![1, 256]
  scatter_S100000x256_S640000x1_S640000x256_1_0_0_1_wf : ScatterDims.WF S100000x256 S640000x1 S640000x256 [1] [0] [0] 1
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S100000x256.size a
  hwx0_5 : ∀ i : grid0.Coords, EltTy.bits .f32 = 32 ∨ (Rect.block (s := S100000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S100000x256.size a
  hwx1_5 : ∀ i : grid1.Coords, EltTy.bits .f32 = 32 ∨ (Rect.block (s := S100000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S100000x256_S640000x1_S640000x256_1_0_n_n_0_1_1256 : GatherDims S100000x256 S640000x1 S640000x256 where
  offsetDims := [1]
  collapsedSliceDims := [0]
  operandBatchingDims := []
  startIndicesBatchingDims := []
  startIndexMap := [0]
  indexVectorDim := 1
  sliceSizes := ![1, 256]
  wf := gather_S100000x256_S640000x1_S640000x256_1_0_n_n_0_1_1256_wf
def scatter_S100000x256_S640000x1_S640000x256_1_0_0_1 : ScatterDims S100000x256 S640000x1 S640000x256 where
  updateWindowDims := [1]
  insertedWindowDims := [0]
  scatterDimsToOperandDims := [0]
  indexVectorDim := 1
  wf := scatter_S100000x256_S640000x1_S640000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v14) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x128 : Shape := ⟨2, ![128, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000x256 : Shape := ⟨2, ![100000, 256]⟩
abbrev S1x256 : Shape := ⟨2, ![1, 256]⟩
abbrev S640000x256 : Shape := ⟨2, ![640000, 256]⟩
abbrev S1x128 : Shape := ⟨2, ![1, 128]⟩

abbrev nBuf : Space → Nat
  | .hbm => 102
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S1x640000, .i32⟩
  | .hbm, ⟨15, _⟩ => ⟨S640000, .i32⟩
  | .hbm, ⟨16, _⟩ => ⟨S1x640000, .i32⟩
  | .hbm, ⟨17, _⟩ => ⟨S640000, .i32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .f32⟩
  | .hbm, ⟨27, _⟩ => ⟨S_, .f32⟩
  | .hbm, ⟨28, _⟩ => ⟨S100000x128, .f32⟩
  | .hbm, ⟨29, _⟩ => ⟨S640000x1, .i32⟩
  | .hbm, ⟨30, _⟩ => ⟨S100000x128, .f32⟩
  | .hbm, ⟨31, _⟩ => ⟨S100000x128, .f32⟩
  | .hbm, ⟨32, _⟩ => ⟨S100000x256, .f32⟩
  | .hbm, ⟨33, _⟩ => ⟨S1x256, .f32⟩
  | .hbm, ⟨34, _⟩ => ⟨S100000x256, .f32⟩
  | .hbm, ⟨35, _⟩ => ⟨S100000x256, .f32⟩
  | .hbm, ⟨36, _⟩ => ⟨S_, .f32⟩
  | .hbm, ⟨37, _⟩ => ⟨S100000x256, .f32⟩
  | .hbm, ⟨38, _⟩ => ⟨S100000x256, .f32⟩
  | .hbm, ⟨39, _⟩ => ⟨S100000x256, .f32⟩
  | .hbm, ⟨40, _⟩ => ⟨S1x256, .f32⟩
  | .hbm, ⟨41, _⟩ => ⟨S100000x256, .f32⟩
  | .hbm, ⟨42, _⟩ => ⟨S100000x256, .f32⟩
  | .hbm, ⟨43, _⟩ => ⟨S_, .f32⟩
  | .hbm, ⟨44, _⟩ => ⟨S100000x256, .f32⟩
  | .hbm, ⟨45, _⟩ => ⟨S100000x256, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x256, .f32⟩
  | .hbm, ⟨55, _⟩ => ⟨S_, .f32⟩
  | .hbm, ⟨56, _⟩ => ⟨S100000x256, .f32⟩
  | .hbm, ⟨57, _⟩ => ⟨S640000x1, .i32⟩
  | .hbm, ⟨58, _⟩ => ⟨S100000x256, .f32⟩
  | .hbm, ⟨59, _⟩ => ⟨S100000x256, .f32⟩
  | .hbm, ⟨60, _⟩ => ⟨S100000x256, .f32⟩
  | .hbm, ⟨61, _⟩ => ⟨S1x256, .f32⟩
  | .hbm, ⟨62, _⟩ => ⟨S100000x256, .f32⟩
  | .hbm, ⟨63, _⟩ => ⟨S100000x256, .f32⟩
  | .hbm, ⟨64, _⟩ => ⟨S_, .f32⟩
  | .hbm, ⟨65, _⟩ => ⟨S100000x256, .f32⟩
  | .hbm, ⟨66, _⟩ => ⟨S100000x256, .f32⟩
  | .hbm, ⟨67, _⟩ => ⟨S100000x256, .f32⟩
  | .hbm, ⟨68, _⟩ => ⟨S1x256, .f32⟩
  | .hbm, ⟨69, _⟩ => ⟨S100000x256, .f32⟩
  | .hbm, ⟨70, _⟩ => ⟨S100000x256, .f32⟩
  | .hbm, ⟨71, _⟩ => ⟨S_, .f32⟩
  | .hbm, ⟨72, _⟩ => ⟨S100000x256, .f32⟩
  | .hbm, ⟨73, _⟩ => ⟨S100000x256, .f32⟩
  | .hbm, ⟨74, _⟩ => ⟨S_, .i32⟩
  | .hbm, ⟨75, _⟩ => ⟨S640000, .i32⟩
  | .hbm, ⟨76, _⟩ => ⟨S640000, .i1⟩
  | .hbm, ⟨77, _⟩ => ⟨S_, .i32⟩
  | .hbm, ⟨78, _⟩ => ⟨S640000, .i32⟩
  | .hbm, ⟨79, _⟩ => ⟨S640000, .i32⟩
  | .hbm, ⟨80, _⟩ => ⟨S640000, .i32⟩
  | .hbm, ⟨81, _⟩ => ⟨S640000x1, .i32⟩
  | .hbm, ⟨82, _⟩ => ⟨S640000x256, .f32⟩
  | .hbm, ⟨83, _⟩ => ⟨S_, .f32⟩
  | .hbm, ⟨84, _⟩ => ⟨S100000x256, .f32⟩
  | .hbm, ⟨85, _⟩ => ⟨S640000x1, .i32⟩
  | .hbm, ⟨86, _⟩ => ⟨S100000x256, .f32⟩
  | .hbm, ⟨87, _⟩ => ⟨S100000x256, .f32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S100000x128, .f32⟩
  | .hbm, ⟨94, _⟩ => ⟨S100000x128, .f32⟩
  | .hbm, ⟨95, _⟩ => ⟨S100000x128, .f32⟩
  | .hbm, ⟨96, _⟩ => ⟨S1x128, .f32⟩
  | .hbm, ⟨97, _⟩ => ⟨S100000x128, .f32⟩
  | .hbm, ⟨98, _⟩ => ⟨S100000x128, .f32⟩
  | .hbm, ⟨99, _⟩ => ⟨S_, .f32⟩
  | .hbm, ⟨100, _⟩ => ⟨S100000x128, .f32⟩
  | .hbm, ⟨101, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_c_3 : Ref sig .tc := ⟨.hbm, 46, rfl⟩
abbrev main_v27 : Ref sig .tc := ⟨.hbm, 47, rfl⟩
abbrev main_v28 : Ref sig .tc := ⟨.hbm, 48, rfl⟩
abbrev main_c_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_7 : Ref sig .tc := ⟨.hbm, 71, rfl⟩
abbrev main_v48 : Ref sig .tc := ⟨.hbm, 72, rfl⟩
abbrev main_v49 : Ref sig .tc := ⟨.hbm, 73, rfl⟩
abbrev main_c_8 : Ref sig .tc := ⟨.hbm, 74, rfl⟩
abbrev main_v50 : Ref sig .tc := ⟨.hbm, 75, rfl⟩
abbrev main_v51 : Ref sig .tc := ⟨.hbm, 76, rfl⟩
abbrev main_c_9 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_10 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_11 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_12 : Ref sig .tc := ⟨.hbm, 99, rfl⟩
abbrev main_v71 : Ref sig .tc := ⟨.hbm, 100, rfl⟩
abbrev main_v72 : Ref sig .tc := ⟨.hbm, 101, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x256_S100000x256_1_0_0_1_n_n_wf : DotDims.WF S100000x128 S128x256 S100000x256 [1] [0] [0] [1] [] []
  dot_S100000x256_S256x256_S100000x256_1_0_0_1_n_n_wf : DotDims.WF S100000x256 S256x256 S100000x256 [1] [0] [0] [1] [] []
  gather_S100000x256_S640000x1_S640000x256_1_0_n_n_0_1_1256_wf : GatherDims.WF S100000x256 S640000x1 S640000x256 [1] [0] [] [0] [] 1 ![1, 256]
  scatter_S100000x256_S640000x1_S640000x256_1_0_0_1_wf : ScatterDims.WF S100000x256 S640000x1 S640000x256 [1] [0] [0] 1
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S640000x1_S640000x256_1_0_n_n_0_1_1256 : GatherDims S100000x256 S640000x1 S640000x256 where
  offsetDims := [1]
  collapsedSliceDims := [0]
  operandBatchingDims := []
  startIndicesBatchingDims := []
  startIndexMap := [0]
  indexVectorDim := 1
  sliceSizes := ![1, 256]
  wf := gather_S100000x256_S640000x1_S640000x256_1_0_n_n_0_1_1256_wf
def scatter_S100000x256_S640000x1_S640000x256_1_0_0_1 : ScatterDims S100000x256 S640000x1 S640000x256 where
  updateWindowDims := [1]
  insertedWindowDims := [0]
  scatterDimsToOperandDims := [0]
  indexVectorDim := 1
  wf := scatter_S100000x256_S640000x1_S640000x256_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its final memory named.

  The program is three launches among stretches of host operations. Its generated frame proof already follows the
  contents of every buffer through the six segments (`W0` at the start, `W6` at the end) and then keeps only what the frame
  claim asks, the argument arrays. Here the same run is closed with everything it knows: every unscoped buffer ends at
  `W6`. In particular the result buffer ends at what the third launch's write-backs leave, and the arguments end as
  they began.
-/
import proofs.«140403_j55920474194401_1_alg».proof.Proof.Gen.KernelIdeal.Frame

set_option maxRecDepth 16384

noncomputable section

namespace Cert.KernelValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends, faultless, with every unscoped buffer of every core at the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The same run read at the result buffer and the arguments: the result ends at what the third launch's 50
    write-backs leave of its output array, every argument as it began. -/
theorem run_result : θ_run defs (onTc (τ := τ) (main (F := F))) ⟨m, fun _ => 0, ρ⟩ (fun r => ∀ c : Dev nD,
      r.2.mem ((c.tc : Thread nD τ).loc main_v45) = (dat2 (V5 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_v45 (by decide))).trans (W6_arr m ρ c 5),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c)⟩)
    (run_all m ρ)

end Cert.KernelValue

end
-- ==== Proof.Spec.lean ====
/-
  The function both programs compute, over the extended reals.

  A node-feature array `x : [N, d]` is updated three times. Each update first adds to every node's row the rows of
  its in-neighbours (the edge list's sources gathered, then summed into the edge list's targets), and then sends every row
  `h` through the same small network: `max (max (h · Wa + ba) 0 · Wb + bb) 0`. The neighbour sum moves whole rows and is
  shared verbatim by the two programs, so it enters here as a parameter (`agg₁` on 128 features, `agg₂` on 256); the row
  network is written out index by index, because that is where the programs differ in spelling (blocks of 2000 rows
  against the whole array; a product accumulated into a zero block against a plain contraction).
-/
import Idealize.ShloMosaic.PureOps.Ideal
import Idealize.ShloMosaic.Lib.ValueIdx

noncomputable section

namespace Cert.Spec

open Idealize.ShloMosaic Idealize.ShloMosaic.ValueIdx

/-- The rectifier's threshold: the real the all-zero single-precision word denotes. -/
abbrev z : EReal := Ideal.ofBits .f32 0x00000000#32

/-- One output entry of the row network: from a row `h` of `A` features, the hidden layer
    `a k = max (∑ l, h l * wa l k + ba k) 0` of `H` features, and the entry `max (∑ k, a k * wb k j + bb j) 0`. -/
def mlp {A H O : Nat} (h : Fin A → EReal) (wa : Fin A → Fin H → EReal) (ba : Fin H → EReal)
    (wb : Fin H → Fin O → EReal) (bb : Fin O → EReal) (j : Fin O) : EReal :=
  max ((∑ k : Fin H, max ((∑ l : Fin A, h l * wa l k) + ba k) z * wb k j) + bb j) z

/-- The row network applied to every row of an `[N, A]` array: entry `(r, j)` depends on row `r` of `x` only. -/
def rows {N A H O : Nat} (x : (⟨2, ![N, A]⟩ : Shape).Idx → EReal) (wa : (⟨2, ![A, H]⟩ : Shape).Idx → EReal)
    (ba : (⟨1, ![H]⟩ : Shape).Idx → EReal) (wb : (⟨2, ![H, O]⟩ : Shape).Idx → EReal)
    (bb : (⟨1, ![O]⟩ : Shape).Idx → EReal) : (⟨2, ![N, O]⟩ : Shape).Idx → EReal :=
  fun i => mlp (fun l => x (ix2 (i 0) l)) (fun l k => wa (ix2 l k)) (fun k => ba (ix1 k))
    (fun k j => wb (ix2 k j)) (fun j => bb (ix1 j)) (i 1)

theorem rows_ix2 {N A H O : Nat} (x : (⟨2, ![N, A]⟩ : Shape).Idx → EReal) (wa : (⟨2, ![A, H]⟩ : Shape).Idx → EReal)
    (ba : (⟨1, ![H]⟩ : Shape).Idx → EReal) (wb : (⟨2, ![H, O]⟩ : Shape).Idx → EReal)
    (bb : (⟨1, ![O]⟩ : Shape).Idx → EReal) (r : Fin N) (j : Fin O) :
    rows x wa ba wb bb (ix2 r j) = mlp (fun l => x (ix2 r l)) (fun l k => wa (ix2 l k)) (fun k => ba (ix1 k))
      (fun k j => wb (ix2 k j)) (fun j => bb (ix1 j)) j := rfl

section Whole

variable {E : Type}

/-- The three updates in sequence, from the node features `x`, the edge list `e` and the three networks' weights and
    biases; `agg₁`, `agg₂` are the neighbour sums (self row included) on 128 and on 256 features. -/
def G (agg₁ : ((⟨2, ![100000, 128]⟩ : Shape).Idx → EReal) → E → (⟨2, ![100000, 128]⟩ : Shape).Idx → EReal)
    (agg₂ : ((⟨2, ![100000, 256]⟩ : Shape).Idx → EReal) → E → (⟨2, ![100000, 256]⟩ : Shape).Idx → EReal)
    (x : (⟨2, ![100000, 128]⟩ : Shape).Idx → EReal) (e : E)
    (w0a : (⟨2, ![128, 256]⟩ : Shape).Idx → EReal) (b0a : (⟨1, ![256]⟩ : Shape).Idx → EReal)
    (w0b : (⟨2, ![256, 256]⟩ : Shape).Idx → EReal) (b0b : (⟨1, ![256]⟩ : Shape).Idx → EReal)
    (w1a : (⟨2, ![256, 256]⟩ : Shape).Idx → EReal) (b1a : (⟨1, ![256]⟩ : Shape).Idx → EReal)
    (w1b : (⟨2, ![256, 256]⟩ : Shape).Idx → EReal) (b1b : (⟨1, ![256]⟩ : Shape).Idx → EReal)
    (w2a : (⟨2, ![256, 128]⟩ : Shape).Idx → EReal) (b2a : (⟨1, ![128]⟩ : Shape).Idx → EReal)
    (w2b : (⟨2, ![128, 128]⟩ : Shape).Idx → EReal) (b2b : (⟨1, ![128]⟩ : Shape).Idx → EReal) :
    (⟨2, ![100000, 128]⟩ : Shape).Idx → EReal :=
  rows (agg₂ (rows (agg₂ (rows (agg₁ x e) w0a b0a w0b b0b) e) w1a b1a w1b b1b) e) w2a b2a w2b b2b

end Whole

end Cert.Spec

end
-- ==== Proof.BlockProduct.lean ====
/-
  The four matrix products of the row network, each read at one entry.

  The kernel multiplies a block of 2000 rows by a whole weight matrix and accumulates into a block of zeros. Over the
  extended reals that is, at row `p` and column `c`, the plain sum over the contracted index `k` of
  `l (p, k) * r (k, c)`: the zero accumulator adds nothing, and the contraction's one axis is `Fin K`.
-/
import proofs.«140403_j55920474194401_1_alg».proof.Proof.Gen.KernelIdeal
import Idealize.ShloMosaic.Lib.ValueIdx
import Idealize.ShloMosaic.PureOps.Ideal.Laws

noncomputable section

namespace Cert.KernelValue

open Cert.KernelIdeal Idealize.ShloMosaic Idealize.ShloMosaic.ValueIdx

/-! ### A `[2000, 128]` block times a `[128, 256]` matrix -/

theorem lhs_row_A (i : S2000x256.Idx) (q : dot_S2000x128_S128x256_S2000x256_1_0_0_1_n_n.contr.Idx) : (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl

theorem rhs_col_A (i : S2000x256.Idx) (q : dot_S2000x128_S128x256_S2000x256_1_0_0_1_n_n.contr.Idx) : (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- Entry `(p, c)` of the product accumulated into the zero block is `∑ k, l (p, k) * r (k, c)`. -/
theorem matmul_A {φ₁ φ₂ : FTy} (l : FVec Ideal S2000x128 φ₁) (r : FVec Ideal S128x256 φ₂) (p : Fin 2000) (c : Fin 256) :
    matmul dot_S2000x128_S128x256_S2000x256_1_0_0_1_n_n none l r (constant (F := Ideal) S2000x256 .f32 0x00000000#32) (ix2 p c) = ∑ k : Fin 128, l (ix2 p k) * r (ix2 k c) := by
  refine (Ideal.matmul_constant_zero_apply dot_S2000x128_S128x256_S2000x256_1_0_0_1_n_n none l r (ix2 p c)).trans ?_
  rw [← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p c) ((contrEquiv1 dot_S2000x128_S128x256_S2000x256_1_0_0_1_n_n 128 rfl rfl).symm k) = ix2 p k := funext fun a => Fin.ext (by
    match a with
    | ⟨0, _⟩ => exact lhs_row_A _ _
    | ⟨1, _⟩ => exact (dot_S2000x128_S128x256_S2000x256_1_0_0_1_n_n.lhsIdx_val_of_single rfl _ _).trans hk)
  have er : dot_S2000x128_S128x256_S2000x256_1_0_0_1_n_n.rhsIdx (ix2 p c) ((contrEquiv1 dot_S2000x128_S128x256_S2000x256_1_0_0_1_n_n 128 rfl rfl).symm k) = ix2 k c := funext fun a => Fin.ext (by
    match a with
    | ⟨0, _⟩ => exact (dot_S2000x128_S128x256_S2000x256_1_0_0_1_n_n.rhsIdx_val_of_single rfl _ _).trans hk
    | ⟨1, _⟩ => exact rhs_col_A _ _)
  rw [el, er]

/-! ### A `[2000, 256]` block times a `[256, 256]` matrix -/

theorem lhs_row_B (i : S2000x256.Idx) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl

theorem rhs_col_B (i : S2000x256.Idx) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Entry `(p, c)` of the product accumulated into the zero block is `∑ k, l (p, k) * r (k, c)`. -/
theorem matmul_B {φ₁ φ₂ : FTy} (l : FVec Ideal S2000x256 φ₁) (r : FVec Ideal S256x256 φ₂) (p : Fin 2000) (c : Fin 256) :
    matmul dot_S2000x256_S256x256_S2000x256_1_0_0_1_n_n none l r (constant (F := Ideal) S2000x256 .f32 0x00000000#32) (ix2 p c) = ∑ k : Fin 256, l (ix2 p k) * r (ix2 k c) := by
  refine (Ideal.matmul_constant_zero_apply dot_S2000x256_S256x256_S2000x256_1_0_0_1_n_n none l r (ix2 p c)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p c) ((contrEquiv1 dot_S2000x256_S256x256_S2000x256_1_0_0_1_n_n 256 rfl rfl).symm k) = ix2 p k := funext fun a => Fin.ext (by
    match a with
    | ⟨0, _⟩ => exact lhs_row_B _ _
    | ⟨1, _⟩ => exact (dot_S2000x256_S256x256_S2000x256_1_0_0_1_n_n.lhsIdx_val_of_single rfl _ _).trans hk)
  have er : dot_S2000x256_S256x256_S2000x256_1_0_0_1_n_n.rhsIdx (ix2 p c) ((contrEquiv1 dot_S2000x256_S256x256_S2000x256_1_0_0_1_n_n 256 rfl rfl).symm k) = ix2 k c := funext fun a => Fin.ext (by
    match a with
    | ⟨0, _⟩ => exact (dot_S2000x256_S256x256_S2000x256_1_0_0_1_n_n.rhsIdx_val_of_single rfl _ _).trans hk
    | ⟨1, _⟩ => exact rhs_col_B _ _)
  rw [el, er]

/-! ### A `[2000, 256]` block times a `[256, 128]` matrix -/

theorem lhs_row_C (i : S2000x128.Idx) (q : dot_S2000x256_S256x128_S2000x128_1_0_0_1_n_n.contr.Idx) : (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl

theorem rhs_col_C (i : S2000x128.Idx) (q : dot_S2000x256_S256x128_S2000x128_1_0_0_1_n_n.contr.Idx) : (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Entry `(p, c)` of the product accumulated into the zero block is `∑ k, l (p, k) * r (k, c)`. -/
theorem matmul_C {φ₁ φ₂ : FTy} (l : FVec Ideal S2000x256 φ₁) (r : FVec Ideal S256x128 φ₂) (p : Fin 2000) (c : Fin 128) :
    matmul dot_S2000x256_S256x128_S2000x128_1_0_0_1_n_n none l r (constant (F := Ideal) S2000x128 .f32 0x00000000#32) (ix2 p c) = ∑ k : Fin 256, l (ix2 p k) * r (ix2 k c) := by
  refine (Ideal.matmul_constant_zero_apply dot_S2000x256_S256x128_S2000x128_1_0_0_1_n_n none l r (ix2 p c)).trans ?_
  rw [← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p c) ((contrEquiv1 dot_S2000x256_S256x128_S2000x128_1_0_0_1_n_n 256 rfl rfl).symm k) = ix2 p k := funext fun a => Fin.ext (by
    match a with
    | ⟨0, _⟩ => exact lhs_row_C _ _
    | ⟨1, _⟩ => exact (dot_S2000x256_S256x128_S2000x128_1_0_0_1_n_n.lhsIdx_val_of_single rfl _ _).trans hk)
  have er : dot_S2000x256_S256x128_S2000x128_1_0_0_1_n_n.rhsIdx (ix2 p c) ((contrEquiv1 dot_S2000x256_S256x128_S2000x128_1_0_0_1_n_n 256 rfl rfl).symm k) = ix2 k c := funext fun a => Fin.ext (by
    match a with
    | ⟨0, _⟩ => exact (dot_S2000x256_S256x128_S2000x128_1_0_0_1_n_n.rhsIdx_val_of_single rfl _ _).trans hk
    | ⟨1, _⟩ => exact rhs_col_C _ _)
  rw [el, er]

/-! ### A `[2000, 128]` block times a `[128, 128]` matrix -/

theorem lhs_row_D (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

theorem rhs_col_D (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry `(p, c)` of the product accumulated into the zero block is `∑ k, l (p, k) * r (k, c)`. -/
theorem matmul_D {φ₁ φ₂ : FTy} (l : FVec Ideal S2000x128 φ₁) (r : FVec Ideal S128x128 φ₂) (p : Fin 2000) (c : Fin 128) :
    matmul dot_S2000x128_S128x128_S2000x128_1_0_0_1_n_n none l r (constant (F := Ideal) S2000x128 .f32 0x00000000#32) (ix2 p c) = ∑ k : Fin 128, l (ix2 p k) * r (ix2 k c) := by
  refine (Ideal.matmul_constant_zero_apply dot_S2000x128_S128x128_S2000x128_1_0_0_1_n_n none l r (ix2 p c)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p c) ((contrEquiv1 dot_S2000x128_S128x128_S2000x128_1_0_0_1_n_n 128 rfl rfl).symm k) = ix2 p k := funext fun a => Fin.ext (by
    match a with
    | ⟨0, _⟩ => exact lhs_row_D _ _
    | ⟨1, _⟩ => exact (dot_S2000x128_S128x128_S2000x128_1_0_0_1_n_n.lhsIdx_val_of_single rfl _ _).trans hk)
  have er : dot_S2000x128_S128x128_S2000x128_1_0_0_1_n_n.rhsIdx (ix2 p c) ((contrEquiv1 dot_S2000x128_S128x128_S2000x128_1_0_0_1_n_n 128 rfl rfl).symm k) = ix2 k c := funext fun a => Fin.ext (by
    match a with
    | ⟨0, _⟩ => exact (dot_S2000x128_S128x128_S2000x128_1_0_0_1_n_n.rhsIdx_val_of_single rfl _ _).trans hk
    | ⟨1, _⟩ => exact rhs_col_D _ _)
  rw [el, er]

end Cert.KernelValue

end
-- ==== Proof.Launch0.lean ====
/-
  The first launch of the row network, from blocks to the whole array.

  The launch walks the node rows in 50 blocks of 2000. At block `t` the body reads rows `2000 t … 2000 t + 1999` of the
  feature array together with the whole weight matrices and bias rows, and writes the same rows of the result. Entry
  `(r, j)` of what it writes is the row network of row `r` of its block (`body0_apply`: two products accumulated into
  zero blocks, each followed by a bias row broadcast down the block and a maximum with zero; the narrowing casts in
  between change nothing over the extended reals). Row `r` of block `t` is row `2000 t + r` of the array, so block `t`
  of the result is block `t` of one whole-array function, `Spec.rows` of the arrays as the launch finds them
  (`flushed0_eq`); the 50 blocks cover every row, hence the result array IS that function (`final0`). All of it
  holds for whatever the arrays hold when the launch starts (`V`).
-/
import proofs.«140403_j55920474194401_1_alg».proof.Proof.Gen.KernelIdeal.Frame
import proofs.«140403_j55920474194401_1_alg».proof.Proof.Spec
import proofs.«140403_j55920474194401_1_alg».proof.Proof.BlockProduct
import Idealize.ShloMosaic.Lib.Pipeline.Value
import Idealize.ShloMosaic.Lib.ValueIdx
import Idealize.ShloMosaic.Lib.ValueLayout

set_option maxRecDepth 16384

noncomputable section

namespace Cert.KernelValue

open Cert.KernelIdeal Cert.KernelIdeal.Gen Idealize.ShloMosaic Idealize.ShloMosaic.TcCoe Idealize.SL.Sem
open Idealize.ShloMosaic.ValueIdx
open Idealize.ShloMosaic.Pipeline (Dat)

/-- The body's arithmetic at entry `(r, j)` of its block: the row network of row `r`. -/
theorem body0_apply (x0 : Vec Ideal S2000x128 .f32) (x1 : Vec Ideal S128x256 .f32) (x2 : Vec Ideal S1x256 .f32)
    (x3 : Vec Ideal S256x256 .f32) (x4 : Vec Ideal S1x256 .f32) (r : Fin 2000) (j : Fin 256) :
    k0_pay1 x0 x1 x2 x3 x4 (ix2 r j)
      = Spec.mlp (fun l => x0 (ix2 r l)) (fun l k => x1 (ix2 l k)) (fun k => x2 (ix2 (0 : Fin 1) k))
          (fun k j => x3 (ix2 k j)) (fun j => x4 (ix2 (0 : Fin 1) j)) j := by
  unfold k0_pay1 Spec.mlp
  refine congrArg₂ max (congrArg₂ (· + ·) ?_ ?_) rfl
  · refine (matmul_B _ _ r j).trans (Finset.sum_congr rfl fun k _ => congrArg₂ (· * ·) ?_ rfl)
    refine congrArg₂ max (congrArg₂ (· + ·) ?_ ?_) rfl
    · refine (matmul_A _ _ r k).trans (Finset.sum_congr rfl fun l _ => congrArg₂ (· * ·) ?_ rfl)
      exact congrFun (shapeCast_self x0 _) (ix2 r l)
    · exact (broadcastTo_1b_ab_apply _ _ r k).trans (congrFun (shapeCast_self x2 _) _)
  · exact (broadcastTo_1b_ab_apply _ _ r j).trans (congrFun (shapeCast_self x4 _) _)

/-- The launch's result as one function of the arrays it finds: the row network of every row, the two biases given
    as the `[1, ·]` rows the launch reads. -/
def layer0 (a0 : S100000x128.Idx → EReal) (a1 : S128x256.Idx → EReal) (a2 : S1x256.Idx → EReal)
    (a3 : S256x256.Idx → EReal) (a4 : S1x256.Idx → EReal) : S100000x256.Idx → EReal :=
  Spec.rows a0 a1 (fun i => a2 (ix2 (0 : Fin 1) (i 0))) a3 (fun i => a4 (ix2 (0 : Fin 1) (i 0)))

/-- At one entry: if the block's row `r` is the array's row `r'`, the body's entry `(r, j)` is the array function's
    entry `(r', j)`. -/
theorem point0 (x0 : Vec Ideal S2000x128 .f32) (x1 : Vec Ideal S128x256 .f32) (x2 : Vec Ideal S1x256 .f32)
    (x3 : Vec Ideal S256x256 .f32) (x4 : Vec Ideal S1x256 .f32) (a0 : S100000x128.Idx → EReal)
    (r : Fin 2000) (r' : Fin 100000) (j : Fin 256) (h0 : ∀ l : Fin 128, x0 (ix2 r l) = a0 (ix2 r' l)) :
    k0_pay1 x0 x1 x2 x3 x4 (ix2 r j) = layer0 a0 x1 x2 x3 x4 (ix2 r' j) := by
  rw [body0_apply]
  unfold layer0
  rw [Spec.rows_ix2]
  exact congrArg (fun h => Spec.mlp h _ _ _ _ j) (funext h0)

section Launch

variable (V : (c : Dev nD) → (b : Ref sig .tc) → Buf (Elt Ideal) ((c : Thread nD τ).loc b))

theorem origin0 : (![0, 0] : Fin 2 → Nat) = fun _ => 0 := funext fun a => by fin_cases a <;> rfl

/-- The index maps over the grid: the feature and result windows sit at block row `t`, every other window at the
    origin. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A window at the origin whose block is its whole array reads the array itself. -/
theorem whole0_1 (c : Dev nD) (t : Fin cfg0.N) : iblk0 V c 1 t = V c main_arg2 := by
  obtain ⟨-, -, e0, e1, -⟩ := index0 t
  funext u
  show V c main_arg2 (((cfg0.win 1).blk t).view.emb u) = V c main_arg2 u
  refine congrArg (V c main_arg2) (funext fun a => Fin.ext ?_)
  match a with
  | ⟨0, _⟩ => show win0_1.index t (0 : Fin 2) * 128 + 1 * (u 0).val = (u 0).val; omega
  | ⟨1, _⟩ => show win0_1.index t (1 : Fin 2) * 256 + 1 * (u 1).val = (u 1).val; omega
theorem whole0_2 (c : Dev nD) (t : Fin cfg0.N) : iblk0 V c 2 t = V c main_v15 := by
  obtain ⟨-, -, -, -, e0, e1, -⟩ := index0 t
  funext u
  show V c main_v15 (((cfg0.win 2).blk t).view.emb u) = V c main_v15 u
  refine congrArg (V c main_v15) (funext fun a => Fin.ext ?_)
  match a with
  | ⟨0, _⟩ => show win0_2.index t (0 : Fin 2) * 1 + 1 * (u 0).val = (u 0).val; omega
  | ⟨1, _⟩ => show win0_2.index t (1 : Fin 2) * 256 + 1 * (u 1).val = (u 1).val; omega
theorem whole0_3 (c : Dev nD) (t : Fin cfg0.N) : iblk0 V c 3 t = V c main_arg4 := by
  obtain ⟨-, -, -, -, -, -, e0, e1, -⟩ := index0 t
  funext u
  show V c main_arg4 (((cfg0.win 3).blk t).view.emb u) = V c main_arg4 u
  refine congrArg (V c main_arg4) (funext fun a => Fin.ext ?_)
  match a with
  | ⟨0, _⟩ => show win0_3.index t (0 : Fin 2) * 256 + 1 * (u 0).val = (u 0).val; omega
  | ⟨1, _⟩ => show win0_3.index t (1 : Fin 2) * 256 + 1 * (u 1).val = (u 1).val; omega
theorem whole0_4 (c : Dev nD) (t : Fin cfg0.N) : iblk0 V c 4 t = V c main_v16 := by
  obtain ⟨-, -, -, -, -, -, -, -, e0, e1, -⟩ := index0 t
  funext u
  show V c main_v16 (((cfg0.win 4).blk t).view.emb u) = V c main_v16 u
  refine congrArg (V c main_v16) (funext fun a => Fin.ext ?_)
  match a with
  | ⟨0, _⟩ => show win0_4.index t (0 : Fin 2) * 1 + 1 * (u 0).val = (u 0).val; omega
  | ⟨1, _⟩ => show win0_4.index t (1 : Fin 2) * 256 + 1 * (u 1).val = (u 1).val; omega

/-- WHAT BLOCK `t` WRITES BACK is block `t` of the array function of the arrays as the launch finds them. -/
theorem flushed0_eq (c : Dev nD) (t : Fin cfg0.N) :
    (dat0 V c).flushed 5 t = ((cfg0.win 5).blk t).view.read (Elt Ideal)
      (layer0 (V c main_v14) (V c main_arg2) (V c main_v15) (V c main_arg4) (V c main_v16)) := by
  show (cfg0.win 5).cut (grid0.coords t) ((dat0 V c).after 5 t) = _
  rw [after0_5]
  unfold out0_5
  rw [View.canon_unit_zero origin0]
  simp only [View.ld_unit_zero (S := S2000x128) origin0, View.ld_unit_zero (S := S128x256) origin0, View.ld_unit_zero (S := S1x256) origin0, View.ld_unit_zero (S := S256x256) origin0]
  rw [whole0_1, whole0_2, whole0_3, whole0_4]
  obtain ⟨e0, e1, -, -, -, -, -, -, -, -, f0, f1⟩ := index0 t
  have hN : grid0.N = 50 := N_0
  have ht : t.val < grid0.N := t.isLt
  funext y
  show k0_pay1 (iblk0 V c 0 t) (V c main_arg2) (V c main_v15) (V c main_arg4) (V c main_v16) y
    = layer0 (V c main_v14) (V c main_arg2) (V c main_v15) (V c main_arg4) (V c main_v16) (((cfg0.win 5).blk t).view.emb y)
  have hy0 : (y 0).val < 2000 := (y 0).isLt
  have hy : (y : S2000x256.Idx) = ix2 (⟨(y 0).val, hy0⟩ : Fin 2000) (⟨(y 1).val, (y 1).isLt⟩ : Fin 256) :=
    funext fun a => Fin.ext (by match a with | ⟨0, _⟩ => rfl | ⟨1, _⟩ => rfl)
  have hi : ((cfg0.win 5).blk t).view.emb y
      = ix2 (⟨t.val * 2000 + (y 0).val, by omega⟩ : Fin 100000) (⟨(y 1).val, (y 1).isLt⟩ : Fin 256) :=
    funext fun a => Fin.ext (by
      match a with
      | ⟨0, _⟩ => show win0_5.index t (0 : Fin 2) * 2000 + 1 * (y 0).val = t.val * 2000 + (y 0).val; omega
      | ⟨1, _⟩ => show win0_5.index t (1 : Fin 2) * 256 + 1 * (y 1).val = (y 1).val; omega)
  rw [hi]
  refine (congrArg (k0_pay1 (iblk0 V c 0 t) (V c main_arg2) (V c main_v15) (V c main_arg4) (V c main_v16)) hy).trans ?_
  refine point0 _ _ _ _ _ (V c main_v14) _ _ _ fun l => ?_
  show V c main_v14 (((cfg0.win 0).blk t).view.emb (ix2 (⟨(y 0).val, hy0⟩ : Fin 2000) l)) = _
  refine congrArg (V c main_v14) (funext fun a => Fin.ext ?_)
  match a with
  | ⟨0, _⟩ => show win0_0.index t (0 : Fin 2) * 2000 + 1 * (y 0).val = t.val * 2000 + (y 0).val; omega
  | ⟨1, _⟩ => show win0_0.index t (1 : Fin 2) * 128 + 1 * l.val = l.val; omega

/-- An index of the result array is in block `t` iff each coordinate is in the block's range on its axis. -/
theorem mem_block0 (t : Fin cfg0.N) (i : S100000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v17).slice (win0_5.rect t)).set ↔ _
  rw [View.set_slice_whole, Rect.mem_set_unit]
  exact Iff.rfl

/-- Every row lies in the block numbered by its quotient by 2000. -/
theorem covered0 (i : S100000x256.Idx) :
    ∃ t : Fin cfg0.N, (cfg0.win 5).flush t = true ∧ i ∈ ((cfg0.win 5).blk t).view.set := by
  have hN : grid0.N = 50 := N_0
  have hi0 : (i 0).val < 100000 := (i 0).isLt
  have hi1 : (i 1).val < 256 := (i 1).isLt
  let t : Fin cfg0.N := ⟨(i 0).val / 2000, by show (i 0).val / 2000 < grid0.N; omega⟩
  obtain ⟨-, -, -, -, -, -, -, -, -, -, f0, f1⟩ := index0 t
  have ht : t.val = (i 0).val / 2000 := rfl
  refine ⟨t, flush0_5 t, ?_⟩
  rw [mem_block0]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- THE RESULT ARRAY after the launch is the row network of every row of the feature array the launch found. -/
theorem final0 (c : Dev nD) :
    (dat0 V c).arrAt 5 cfg0.N
      = layer0 (V c main_v14) (V c main_arg2) (V c main_v15) (V c main_arg4) (V c main_v16) :=
  (dat0 V c).arrAt_eq_of_cover 5 _ (fun t _ => flushed0_eq V c t) (covered0)

end Launch

end Cert.KernelValue

end
-- ==== Proof.Launch1.lean ====
/-
  The second launch of the row network, from blocks to the whole array.

  The launch walks the node rows in 50 blocks of 2000. At block `t` the body reads rows `2000 t … 2000 t + 1999` of the
  feature array together with the whole weight matrices and bias rows, and writes the same rows of the result. Entry
  `(r, j)` of what it writes is the row network of row `r` of its block (`body1_apply`: two products accumulated into
  zero blocks, each followed by a bias row broadcast down the block and a maximum with zero; the narrowing casts in
  between change nothing over the extended reals). Row `r` of block `t` is row `2000 t + r` of the array, so block `t`
  of the result is block `t` of one whole-array function, `Spec.rows` of the arrays as the launch finds them
  (`flushed1_eq`); the 50 blocks cover every row, hence the result array IS that function (`final1`). All of it
  holds for whatever the arrays hold when the launch starts (`V`).
-/
import proofs.«140403_j55920474194401_1_alg».proof.Proof.Gen.KernelIdeal.Frame
import proofs.«140403_j55920474194401_1_alg».proof.Proof.Spec
import proofs.«140403_j55920474194401_1_alg».proof.Proof.BlockProduct
import Idealize.ShloMosaic.Lib.Pipeline.Value
import Idealize.ShloMosaic.Lib.ValueIdx
import Idealize.ShloMosaic.Lib.ValueLayout

set_option maxRecDepth 16384

noncomputable section

namespace Cert.KernelValue

open Cert.KernelIdeal Cert.KernelIdeal.Gen Idealize.ShloMosaic Idealize.ShloMosaic.TcCoe Idealize.SL.Sem
open Idealize.ShloMosaic.ValueIdx
open Idealize.ShloMosaic.Pipeline (Dat)

/-- The body's arithmetic at entry `(r, j)` of its block: the row network of row `r`. -/
theorem body1_apply (x0 : Vec Ideal S2000x256 .f32) (x1 : Vec Ideal S256x256 .f32) (x2 : Vec Ideal S1x256 .f32)
    (x3 : Vec Ideal S256x256 .f32) (x4 : Vec Ideal S1x256 .f32) (r : Fin 2000) (j : Fin 256) :
    k1_pay1 x0 x1 x2 x3 x4 (ix2 r j)
      = Spec.mlp (fun l => x0 (ix2 r l)) (fun l k => x1 (ix2 l k)) (fun k => x2 (ix2 (0 : Fin 1) k))
          (fun k j => x3 (ix2 k j)) (fun j => x4 (ix2 (0 : Fin 1) j)) j := by
  unfold k1_pay1 Spec.mlp
  refine congrArg₂ max (congrArg₂ (· + ·) ?_ ?_) rfl
  · refine (matmul_B _ _ r j).trans (Finset.sum_congr rfl fun k _ => congrArg₂ (· * ·) ?_ rfl)
    refine congrArg₂ max (congrArg₂ (· + ·) ?_ ?_) rfl
    · refine (matmul_B _ _ r k).trans (Finset.sum_congr rfl fun l _ => congrArg₂ (· * ·) ?_ rfl)
      exact congrFun (shapeCast_self x0 _) (ix2 r l)
    · exact (broadcastTo_1b_ab_apply _ _ r k).trans (congrFun (shapeCast_self x2 _) _)
  · exact (broadcastTo_1b_ab_apply _ _ r j).trans (congrFun (shapeCast_self x4 _) _)

/-- The launch's result as one function of the arrays it finds: the row network of every row, the two biases given
    as the `[1, ·]` rows the launch reads. -/
def layer1 (a0 : S100000x256.Idx → EReal) (a1 : S256x256.Idx → EReal) (a2 : S1x256.Idx → EReal)
    (a3 : S256x256.Idx → EReal) (a4 : S1x256.Idx → EReal) : S100000x256.Idx → EReal :=
  Spec.rows a0 a1 (fun i => a2 (ix2 (0 : Fin 1) (i 0))) a3 (fun i => a4 (ix2 (0 : Fin 1) (i 0)))

/-- At one entry: if the block's row `r` is the array's row `r'`, the body's entry `(r, j)` is the array function's
    entry `(r', j)`. -/
theorem point1 (x0 : Vec Ideal S2000x256 .f32) (x1 : Vec Ideal S256x256 .f32) (x2 : Vec Ideal S1x256 .f32)
    (x3 : Vec Ideal S256x256 .f32) (x4 : Vec Ideal S1x256 .f32) (a0 : S100000x256.Idx → EReal)
    (r : Fin 2000) (r' : Fin 100000) (j : Fin 256) (h0 : ∀ l : Fin 256, x0 (ix2 r l) = a0 (ix2 r' l)) :
    k1_pay1 x0 x1 x2 x3 x4 (ix2 r j) = layer1 a0 x1 x2 x3 x4 (ix2 r' j) := by
  rw [body1_apply]
  unfold layer1
  rw [Spec.rows_ix2]
  exact congrArg (fun h => Spec.mlp h _ _ _ _ j) (funext h0)

section Launch

variable (V : (c : Dev nD) → (b : Ref sig .tc) → Buf (Elt Ideal) ((c : Thread nD τ).loc b))

theorem origin1 : (![0, 0] : Fin 2 → Nat) = fun _ => 0 := funext fun a => by fin_cases a <;> rfl

/-- The index maps over the grid: the feature and result windows sit at block row `t`, every other window at the
    origin. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A window at the origin whose block is its whole array reads the array itself. -/
theorem whole1_1 (c : Dev nD) (t : Fin cfg1.N) : iblk1 V c 1 t = V c main_arg6 := by
  obtain ⟨-, -, e0, e1, -⟩ := index1 t
  funext u
  show V c main_arg6 (((cfg1.win 1).blk t).view.emb u) = V c main_arg6 u
  refine congrArg (V c main_arg6) (funext fun a => Fin.ext ?_)
  match a with
  | ⟨0, _⟩ => show win1_1.index t (0 : Fin 2) * 256 + 1 * (u 0).val = (u 0).val; omega
  | ⟨1, _⟩ => show win1_1.index t (1 : Fin 2) * 256 + 1 * (u 1).val = (u 1).val; omega
theorem whole1_2 (c : Dev nD) (t : Fin cfg1.N) : iblk1 V c 2 t = V c main_v29 := by
  obtain ⟨-, -, -, -, e0, e1, -⟩ := index1 t
  funext u
  show V c main_v29 (((cfg1.win 2).blk t).view.emb u) = V c main_v29 u
  refine congrArg (V c main_v29) (funext fun a => Fin.ext ?_)
  match a with
  | ⟨0, _⟩ => show win1_2.index t (0 : Fin 2) * 1 + 1 * (u 0).val = (u 0).val; omega
  | ⟨1, _⟩ => show win1_2.index t (1 : Fin 2) * 256 + 1 * (u 1).val = (u 1).val; omega
theorem whole1_3 (c : Dev nD) (t : Fin cfg1.N) : iblk1 V c 3 t = V c main_arg8 := by
  obtain ⟨-, -, -, -, -, -, e0, e1, -⟩ := index1 t
  funext u
  show V c main_arg8 (((cfg1.win 3).blk t).view.emb u) = V c main_arg8 u
  refine congrArg (V c main_arg8) (funext fun a => Fin.ext ?_)
  match a with
  | ⟨0, _⟩ => show win1_3.index t (0 : Fin 2) * 256 + 1 * (u 0).val = (u 0).val; omega
  | ⟨1, _⟩ => show win1_3.index t (1 : Fin 2) * 256 + 1 * (u 1).val = (u 1).val; omega
theorem whole1_4 (c : Dev nD) (t : Fin cfg1.N) : iblk1 V c 4 t = V c main_v30 := by
  obtain ⟨-, -, -, -, -, -, -, -, e0, e1, -⟩ := index1 t
  funext u
  show V c main_v30 (((cfg1.win 4).blk t).view.emb u) = V c main_v30 u
  refine congrArg (V c main_v30) (funext fun a => Fin.ext ?_)
  match a with
  | ⟨0, _⟩ => show win1_4.index t (0 : Fin 2) * 1 + 1 * (u 0).val = (u 0).val; omega
  | ⟨1, _⟩ => show win1_4.index t (1 : Fin 2) * 256 + 1 * (u 1).val = (u 1).val; omega

/-- WHAT BLOCK `t` WRITES BACK is block `t` of the array function of the arrays as the launch finds them. -/
theorem flushed1_eq (c : Dev nD) (t : Fin cfg1.N) :
    (dat1 V c).flushed 5 t = ((cfg1.win 5).blk t).view.read (Elt Ideal)
      (layer1 (V c main_v28) (V c main_arg6) (V c main_v29) (V c main_arg8) (V c main_v30)) := by
  show (cfg1.win 5).cut (grid1.coords t) ((dat1 V c).after 5 t) = _
  rw [after1_5]
  unfold out1_5
  rw [View.canon_unit_zero origin1]
  simp only [View.ld_unit_zero (S := S2000x256) origin1, View.ld_unit_zero (S := S256x256) origin1, View.ld_unit_zero (S := S1x256) origin1]
  rw [whole1_1, whole1_2, whole1_3, whole1_4]
  obtain ⟨e0, e1, -, -, -, -, -, -, -, -, f0, f1⟩ := index1 t
  have hN : grid1.N = 50 := N_1
  have ht : t.val < grid1.N := t.isLt
  funext y
  show k1_pay1 (iblk1 V c 0 t) (V c main_arg6) (V c main_v29) (V c main_arg8) (V c main_v30) y
    = layer1 (V c main_v28) (V c main_arg6) (V c main_v29) (V c main_arg8) (V c main_v30) (((cfg1.win 5).blk t).view.emb y)
  have hy0 : (y 0).val < 2000 := (y 0).isLt
  have hy : (y : S2000x256.Idx) = ix2 (⟨(y 0).val, hy0⟩ : Fin 2000) (⟨(y 1).val, (y 1).isLt⟩ : Fin 256) :=
    funext fun a => Fin.ext (by match a with | ⟨0, _⟩ => rfl | ⟨1, _⟩ => rfl)
  have hi : ((cfg1.win 5).blk t).view.emb y
      = ix2 (⟨t.val * 2000 + (y 0).val, by omega⟩ : Fin 100000) (⟨(y 1).val, (y 1).isLt⟩ : Fin 256) :=
    funext fun a => Fin.ext (by
      match a with
      | ⟨0, _⟩ => show win1_5.index t (0 : Fin 2) * 2000 + 1 * (y 0).val = t.val * 2000 + (y 0).val; omega
      | ⟨1, _⟩ => show win1_5.index t (1 : Fin 2) * 256 + 1 * (y 1).val = (y 1).val; omega)
  rw [hi]
  refine (congrArg (k1_pay1 (iblk1 V c 0 t) (V c main_arg6) (V c main_v29) (V c main_arg8) (V c main_v30)) hy).trans ?_
  refine point1 _ _ _ _ _ (V c main_v28) _ _ _ fun l => ?_
  show V c main_v28 (((cfg1.win 0).blk t).view.emb (ix2 (⟨(y 0).val, hy0⟩ : Fin 2000) l)) = _
  refine congrArg (V c main_v28) (funext fun a => Fin.ext ?_)
  match a with
  | ⟨0, _⟩ => show win1_0.index t (0 : Fin 2) * 2000 + 1 * (y 0).val = t.val * 2000 + (y 0).val; omega
  | ⟨1, _⟩ => show win1_0.index t (1 : Fin 2) * 256 + 1 * l.val = l.val; omega

/-- An index of the result array is in block `t` iff each coordinate is in the block's range on its axis. -/
theorem mem_block1 (t : Fin cfg1.N) (i : S100000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v31).slice (win1_5.rect t)).set ↔ _
  rw [View.set_slice_whole, Rect.mem_set_unit]
  exact Iff.rfl

/-- Every row lies in the block numbered by its quotient by 2000. -/
theorem covered1 (i : S100000x256.Idx) :
    ∃ t : Fin cfg1.N, (cfg1.win 5).flush t = true ∧ i ∈ ((cfg1.win 5).blk t).view.set := by
  have hN : grid1.N = 50 := N_1
  have hi0 : (i 0).val < 100000 := (i 0).isLt
  have hi1 : (i 1).val < 256 := (i 1).isLt
  let t : Fin cfg1.N := ⟨(i 0).val / 2000, by show (i 0).val / 2000 < grid1.N; omega⟩
  obtain ⟨-, -, -, -, -, -, -, -, -, -, f0, f1⟩ := index1 t
  have ht : t.val = (i 0).val / 2000 := rfl
  refine ⟨t, flush1_5 t, ?_⟩
  rw [mem_block1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

/-- THE RESULT ARRAY after the launch is the row network of every row of the feature array the launch found. -/
theorem final1 (c : Dev nD) :
    (dat1 V c).arrAt 5 cfg1.N
      = layer1 (V c main_v28) (V c main_arg6) (V c main_v29) (V c main_arg8) (V c main_v30) :=
  (dat1 V c).arrAt_eq_of_cover 5 _ (fun t _ => flushed1_eq V c t) (covered1)

end Launch

end Cert.KernelValue

end
-- ==== Proof.Launch2.lean ====
/-
  The third launch of the row network, from blocks to the whole array.

  The launch walks the node rows in 50 blocks of 2000. At block `t` the body reads rows `2000 t … 2000 t + 1999` of the
  feature array together with the whole weight matrices and bias rows, and writes the same rows of the result. Entry
  `(r, j)` of what it writes is the row network of row `r` of its block (`body2_apply`: two products accumulated into
  zero blocks, each followed by a bias row broadcast down the block and a maximum with zero; the narrowing casts in
  between change nothing over the extended reals). Row `r` of block `t` is row `2000 t + r` of the array, so block `t`
  of the result is block `t` of one whole-array function, `Spec.rows` of the arrays as the launch finds them
  (`flushed2_eq`); the 50 blocks cover every row, hence the result array IS that function (`final2`). All of it
  holds for whatever the arrays hold when the launch starts (`V`).
-/
import proofs.«140403_j55920474194401_1_alg».proof.Proof.Gen.KernelIdeal.Frame
import proofs.«140403_j55920474194401_1_alg».proof.Proof.Spec
import proofs.«140403_j55920474194401_1_alg».proof.Proof.BlockProduct
import Idealize.ShloMosaic.Lib.Pipeline.Value
import Idealize.ShloMosaic.Lib.ValueIdx
import Idealize.ShloMosaic.Lib.ValueLayout

set_option maxRecDepth 16384

noncomputable section

namespace Cert.KernelValue

open Cert.KernelIdeal Cert.KernelIdeal.Gen Idealize.ShloMosaic Idealize.ShloMosaic.TcCoe Idealize.SL.Sem
open Idealize.ShloMosaic.ValueIdx
open Idealize.ShloMosaic.Pipeline (Dat)

/-- The body's arithmetic at entry `(r, j)` of its block: the row network of row `r`. -/
theorem body2_apply (x0 : Vec Ideal S2000x256 .f32) (x1 : Vec Ideal S256x128 .f32) (x2 : Vec Ideal S1x128 .f32)
    (x3 : Vec Ideal S128x128 .f32) (x4 : Vec Ideal S1x128 .f32) (r : Fin 2000) (j : Fin 128) :
    k2_pay1 x0 x1 x2 x3 x4 (ix2 r j)
      = Spec.mlp (fun l => x0 (ix2 r l)) (fun l k => x1 (ix2 l k)) (fun k => x2 (ix2 (0 : Fin 1) k))
          (fun k j => x3 (ix2 k j)) (fun j => x4 (ix2 (0 : Fin 1) j)) j := by
  unfold k2_pay1 Spec.mlp
  refine congrArg₂ max (congrArg₂ (· + ·) ?_ ?_) rfl
  · refine (matmul_D _ _ r j).trans (Finset.sum_congr rfl fun k _ => congrArg₂ (· * ·) ?_ rfl)
    refine congrArg₂ max (congrArg₂ (· + ·) ?_ ?_) rfl
    · refine (matmul_C _ _ r k).trans (Finset.sum_congr rfl fun l _ => congrArg₂ (· * ·) ?_ rfl)
      exact congrFun (shapeCast_self x0 _) (ix2 r l)
    · exact (broadcastTo_1b_ab_apply _ _ r k).trans (congrFun (shapeCast_self x2 _) _)
  · exact (broadcastTo_1b_ab_apply _ _ r j).trans (congrFun (shapeCast_self x4 _) _)

/-- The launch's result as one function of the arrays it finds: the row network of every row, the two biases given
    as the `[1, ·]` rows the launch reads. -/
def layer2 (a0 : S100000x256.Idx → EReal) (a1 : S256x128.Idx → EReal) (a2 : S1x128.Idx → EReal)
    (a3 : S128x128.Idx → EReal) (a4 : S1x128.Idx → EReal) : S100000x128.Idx → EReal :=
  Spec.rows a0 a1 (fun i => a2 (ix2 (0 : Fin 1) (i 0))) a3 (fun i => a4 (ix2 (0 : Fin 1) (i 0)))

/-- At one entry: if the block's row `r` is the array's row `r'`, the body's entry `(r, j)` is the array function's
    entry `(r', j)`. -/
theorem point2 (x0 : Vec Ideal S2000x256 .f32) (x1 : Vec Ideal S256x128 .f32) (x2 : Vec Ideal S1x128 .f32)
    (x3 : Vec Ideal S128x128 .f32) (x4 : Vec Ideal S1x128 .f32) (a0 : S100000x256.Idx → EReal)
    (r : Fin 2000) (r' : Fin 100000) (j : Fin 128) (h0 : ∀ l : Fin 256, x0 (ix2 r l) = a0 (ix2 r' l)) :
    k2_pay1 x0 x1 x2 x3 x4 (ix2 r j) = layer2 a0 x1 x2 x3 x4 (ix2 r' j) := by
  rw [body2_apply]
  unfold layer2
  rw [Spec.rows_ix2]
  exact congrArg (fun h => Spec.mlp h _ _ _ _ j) (funext h0)

section Launch

variable (V : (c : Dev nD) → (b : Ref sig .tc) → Buf (Elt Ideal) ((c : Thread nD τ).loc b))

theorem origin2 : (![0, 0] : Fin 2 → Nat) = fun _ => 0 := funext fun a => by fin_cases a <;> rfl

/-- The index maps over the grid: the feature and result windows sit at block row `t`, every other window at the
    origin. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- A window at the origin whose block is its whole array reads the array itself. -/
theorem whole2_1 (c : Dev nD) (t : Fin cfg2.N) : iblk2 V c 1 t = V c main_arg10 := by
  obtain ⟨-, -, e0, e1, -⟩ := index2 t
  funext u
  show V c main_arg10 (((cfg2.win 1).blk t).view.emb u) = V c main_arg10 u
  refine congrArg (V c main_arg10) (funext fun a => Fin.ext ?_)
  match a with
  | ⟨0, _⟩ => show win2_1.index t (0 : Fin 2) * 256 + 1 * (u 0).val = (u 0).val; omega
  | ⟨1, _⟩ => show win2_1.index t (1 : Fin 2) * 128 + 1 * (u 1).val = (u 1).val; omega
theorem whole2_2 (c : Dev nD) (t : Fin cfg2.N) : iblk2 V c 2 t = V c main_v43 := by
  obtain ⟨-, -, -, -, e0, e1, -⟩ := index2 t
  funext u
  show V c main_v43 (((cfg2.win 2).blk t).view.emb u) = V c main_v43 u
  refine congrArg (V c main_v43) (funext fun a => Fin.ext ?_)
  match a with
  | ⟨0, _⟩ => show win2_2.index t (0 : Fin 2) * 1 + 1 * (u 0).val = (u 0).val; omega
  | ⟨1, _⟩ => show win2_2.index t (1 : Fin 2) * 128 + 1 * (u 1).val = (u 1).val; omega
theorem whole2_3 (c : Dev nD) (t : Fin cfg2.N) : iblk2 V c 3 t = V c main_arg12 := by
  obtain ⟨-, -, -, -, -, -, e0, e1, -⟩ := index2 t
  funext u
  show V c main_arg12 (((cfg2.win 3).blk t).view.emb u) = V c main_arg12 u
  refine congrArg (V c main_arg12) (funext fun a => Fin.ext ?_)
  match a with
  | ⟨0, _⟩ => show win2_3.index t (0 : Fin 2) * 128 + 1 * (u 0).val = (u 0).val; omega
  | ⟨1, _⟩ => show win2_3.index t (1 : Fin 2) * 128 + 1 * (u 1).val = (u 1).val; omega
theorem whole2_4 (c : Dev nD) (t : Fin cfg2.N) : iblk2 V c 4 t = V c main_v44 := by
  obtain ⟨-, -, -, -, -, -, -, -, e0, e1, -⟩ := index2 t
  funext u
  show V c main_v44 (((cfg2.win 4).blk t).view.emb u) = V c main_v44 u
  refine congrArg (V c main_v44) (funext fun a => Fin.ext ?_)
  match a with
  | ⟨0, _⟩ => show win2_4.index t (0 : Fin 2) * 1 + 1 * (u 0).val = (u 0).val; omega
  | ⟨1, _⟩ => show win2_4.index t (1 : Fin 2) * 128 + 1 * (u 1).val = (u 1).val; omega

/-- WHAT BLOCK `t` WRITES BACK is block `t` of the array function of the arrays as the launch finds them. -/
theorem flushed2_eq (c : Dev nD) (t : Fin cfg2.N) :
    (dat2 V c).flushed 5 t = ((cfg2.win 5).blk t).view.read (Elt Ideal)
      (layer2 (V c main_v42) (V c main_arg10) (V c main_v43) (V c main_arg12) (V c main_v44)) := by
  show (cfg2.win 5).cut (grid2.coords t) ((dat2 V c).after 5 t) = _
  rw [after2_5]
  unfold out2_5
  rw [View.canon_unit_zero origin2]
  simp only [View.ld_unit_zero (S := S2000x256) origin2, View.ld_unit_zero (S := S256x128) origin2, View.ld_unit_zero (S := S1x128) origin2, View.ld_unit_zero (S := S128x128) origin2]
  rw [whole2_1, whole2_2, whole2_3, whole2_4]
  obtain ⟨e0, e1, -, -, -, -, -, -, -, -, f0, f1⟩ := index2 t
  have hN : grid2.N = 50 := N_2
  have ht : t.val < grid2.N := t.isLt
  funext y
  show k2_pay1 (iblk2 V c 0 t) (V c main_arg10) (V c main_v43) (V c main_arg12) (V c main_v44) y
    = layer2 (V c main_v42) (V c main_arg10) (V c main_v43) (V c main_arg12) (V c main_v44) (((cfg2.win 5).blk t).view.emb y)
  have hy0 : (y 0).val < 2000 := (y 0).isLt
  have hy : (y : S2000x128.Idx) = ix2 (⟨(y 0).val, hy0⟩ : Fin 2000) (⟨(y 1).val, (y 1).isLt⟩ : Fin 128) :=
    funext fun a => Fin.ext (by match a with | ⟨0, _⟩ => rfl | ⟨1, _⟩ => rfl)
  have hi : ((cfg2.win 5).blk t).view.emb y
      = ix2 (⟨t.val * 2000 + (y 0).val, by omega⟩ : Fin 100000) (⟨(y 1).val, (y 1).isLt⟩ : Fin 128) :=
    funext fun a => Fin.ext (by
      match a with
      | ⟨0, _⟩ => show win2_5.index t (0 : Fin 2) * 2000 + 1 * (y 0).val = t.val * 2000 + (y 0).val; omega
      | ⟨1, _⟩ => show win2_5.index t (1 : Fin 2) * 128 + 1 * (y 1).val = (y 1).val; omega)
  rw [hi]
  refine (congrArg (k2_pay1 (iblk2 V c 0 t) (V c main_arg10) (V c main_v43) (V c main_arg12) (V c main_v44)) hy).trans ?_
  refine point2 _ _ _ _ _ (V c main_v42) _ _ _ fun l => ?_
  show V c main_v42 (((cfg2.win 0).blk t).view.emb (ix2 (⟨(y 0).val, hy0⟩ : Fin 2000) l)) = _
  refine congrArg (V c main_v42) (funext fun a => Fin.ext ?_)
  match a with
  | ⟨0, _⟩ => show win2_0.index t (0 : Fin 2) * 2000 + 1 * (y 0).val = t.val * 2000 + (y 0).val; omega
  | ⟨1, _⟩ => show win2_0.index t (1 : Fin 2) * 256 + 1 * l.val = l.val; omega

/-- An index of the result array is in block `t` iff each coordinate is in the block's range on its axis. -/
theorem mem_block2 (t : Fin cfg2.N) (i : S100000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v45).slice (win2_5.rect t)).set ↔ _
  rw [View.set_slice_whole, Rect.mem_set_unit]
  exact Iff.rfl

/-- Every row lies in the block numbered by its quotient by 2000. -/
theorem covered2 (i : S100000x128.Idx) :
    ∃ t : Fin cfg2.N, (cfg2.win 5).flush t = true ∧ i ∈ ((cfg2.win 5).blk t).view.set := by
  have hN : grid2.N = 50 := N_2
  have hi0 : (i 0).val < 100000 := (i 0).isLt
  have hi1 : (i 1).val < 128 := (i 1).isLt
  let t : Fin cfg2.N := ⟨(i 0).val / 2000, by show (i 0).val / 2000 < grid2.N; omega⟩
  obtain ⟨-, -, -, -, -, -, -, -, -, -, f0, f1⟩ := index2 t
  have ht : t.val = (i 0).val / 2000 := rfl
  refine ⟨t, flush2_5 t, ?_⟩
  rw [mem_block2]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- THE RESULT ARRAY after the launch is the row network of every row of the feature array the launch found. -/
theorem final2 (c : Dev nD) :
    (dat2 V c).arrAt 5 cfg2.N
      = layer2 (V c main_v42) (V c main_arg10) (V c main_v43) (V c main_arg12) (V c main_v44) :=
  (dat2 V c).arrAt_eq_of_cover 5 _ (fun t _ => flushed2_eq V c t) (covered2)

end Launch

end Cert.KernelValue

end
-- ==== Proof.HostStretch.lean ====
/-
  The three stretches of host operations between the launches, each read as a function of the buffer contents it starts
  from.

  Every stretch does the same three things: it forms the neighbour sum of the current feature array (gather the source
  rows, scatter-add them at the target rows, add the array itself), and it recasts the next network's two bias vectors
  `[n]` as rows `[1, n]`. The first stretch also cuts the edge list `[2, E]` into its source row and its target row,
  which the later stretches read again. Nothing else is written, so every other buffer keeps its contents.
-/
import proofs.«140403_j55920474194401_1_alg».proof.Proof.Gen.KernelIdeal.Launch
import Idealize.ShloMosaic.Lib.StableHlo.Run
import Idealize.ShloMosaic.PureOps.Ideal

set_option maxRecDepth 16384

noncomputable section

namespace Cert.KernelValue

open Cert.KernelIdeal Cert.KernelIdeal.Gen Idealize.ShloMosaic Idealize.ShloMosaic.TcCoe Idealize.SL.Sem
open Idealize.ShloMosaic.StableHlo

/-- The edge list's first row: the source node of every edge. -/
def sources (e : (⟨S2x640000, .i32⟩ : BufTy).Contents (Elt Ideal)) : (⟨S640000, .i32⟩ : BufTy).Contents (Elt Ideal) :=
  shapeCast S640000 (extractStridedSlice S1x640000 ![0, 0] e slices_S2x640000_S1x640000_0_0) shapeCasts_S1x640000_S640000

/-- The edge list's second row: the target node of every edge. -/
def targets (e : (⟨S2x640000, .i32⟩ : BufTy).Contents (Elt Ideal)) : (⟨S640000, .i32⟩ : BufTy).Contents (Elt Ideal) :=
  shapeCast S640000 (extractStridedSlice S1x640000 ![1, 0] e slices_S2x640000_S1x640000_1_0) shapeCasts_S1x640000_S640000

/-- The neighbour sum on 128 features, from the source and target index arrays: every edge's source row is gathered
    (a negative source index is first moved up by the node count), the gathered rows are summed into a zero array at
    the edges' target rows, and the array itself is added. Kept as ONE term: no proof opens it. -/
def sumNeighbours1 (h : (⟨S100000x128, .f32⟩ : BufTy).Contents (Elt Ideal)) (s t : (⟨S640000, .i32⟩ : BufTy).Contents (Elt Ideal)) :
    (⟨S100000x128, .f32⟩ : BufTy).Contents (Elt Ideal) :=
  addf h (Host.scatterAdd scatter_S100000x128_S640000x1_S640000x128_1_0_0_1
    (broadcastInDim S100000x128 ![] bcast_S_S100000x128 (constant (F := Ideal) S_ .f32 0x00000000#32))
    (broadcastInDim S640000x1 ![0] bcast_S640000_S640000x1_0 t)
    (Host.gather gather_S100000x128_S640000x1_S640000x128_1_0_n_n_0_1_1128 h
      (broadcastInDim S640000x1 ![0] bcast_S640000_S640000x1_0
        (select (cmpi .slt s (broadcastInDim S640000 ![] bcast_S_S640000 (constantI S_ 32 0#32)))
          (addi s (broadcastInDim S640000 ![] bcast_S_S640000 (constantI S_ 32 100000#32))) s))))

/-- The neighbour sum on 256 features, from the source and target index arrays: every edge's source row is gathered
    (a negative source index is first moved up by the node count), the gathered rows are summed into a zero array at
    the edges' target rows, and the array itself is added. Kept as ONE term: no proof opens it. -/
def sumNeighbours2 (h : (⟨S100000x256, .f32⟩ : BufTy).Contents (Elt Ideal)) (s t : (⟨S640000, .i32⟩ : BufTy).Contents (Elt Ideal)) :
    (⟨S100000x256, .f32⟩ : BufTy).Contents (Elt Ideal) :=
  addf h (Host.scatterAdd scatter_S100000x256_S640000x1_S640000x256_1_0_0_1
    (broadcastInDim S100000x256 ![] bcast_S_S100000x256 (constant (F := Ideal) S_ .f32 0x00000000#32))
    (broadcastInDim S640000x1 ![0] bcast_S640000_S640000x1_0 t)
    (Host.gather gather_S100000x256_S640000x1_S640000x256_1_0_n_n_0_1_1256 h
      (broadcastInDim S640000x1 ![0] bcast_S640000_S640000x1_0
        (select (cmpi .slt s (broadcastInDim S640000 ![] bcast_S_S640000 (constantI S_ 32 0#32)))
          (addi s (broadcastInDim S640000 ![] bcast_S_S640000 (constantI S_ 32 100000#32))) s))))

/-- The neighbour sum on 128 features as a function of the feature array and the edge list. -/
def neighbours₁ (x : (⟨S100000x128, .f32⟩ : BufTy).Contents (Elt Ideal)) (e : (⟨S2x640000, .i32⟩ : BufTy).Contents (Elt Ideal)) :
    (⟨S100000x128, .f32⟩ : BufTy).Contents (Elt Ideal) := sumNeighbours1 x (sources e) (targets e)

/-- The neighbour sum on 256 features as a function of the feature array and the edge list. -/
def neighbours₂ (h : (⟨S100000x256, .f32⟩ : BufTy).Contents (Elt Ideal)) (e : (⟨S2x640000, .i32⟩ : BufTy).Contents (Elt Ideal)) :
    (⟨S100000x256, .f32⟩ : BufTy).Contents (Elt Ideal) := sumNeighbours2 h (sources e) (targets e)

variable (W : Valuation τ sig (Elt Ideal))

theorem stretch0_sources : StableHlo.after (hostOps0 (F := Ideal)) W (Proc.devRef .tc main_v1) = sources (W (Proc.devRef .tc main_arg1)) := by
  dsimp only [hostOps0]; after_results; rfl
theorem stretch0_targets : StableHlo.after (hostOps0 (F := Ideal)) W (Proc.devRef .tc main_v3) = targets (W (Proc.devRef .tc main_arg1)) := by
  dsimp only [hostOps0]; after_results; rfl

/-! ### Host stretch 0 -/

theorem stretch0_sum : StableHlo.after (hostOps0 (F := Ideal)) W (Proc.devRef .tc main_v14)
    = sumNeighbours1 (W (Proc.devRef .tc main_arg0)) (sources (W (Proc.devRef .tc main_arg1))) (targets (W (Proc.devRef .tc main_arg1))) := by
  dsimp only [hostOps0]; after_results_simp <;> rfl
theorem stretch0_biasA : StableHlo.after (hostOps0 (F := Ideal)) W (Proc.devRef .tc main_v15)
    = shapeCast _ (W (Proc.devRef .tc main_arg3)) shapeCasts_S256_S1x256 := by
  dsimp only [hostOps0]; after_results; rfl
theorem stretch0_biasB : StableHlo.after (hostOps0 (F := Ideal)) W (Proc.devRef .tc main_v16)
    = shapeCast _ (W (Proc.devRef .tc main_arg5)) shapeCasts_S256_S1x256 := by
  dsimp only [hostOps0]; after_results; rfl
theorem stretch0_keeps_main_arg0 : StableHlo.after (hostOps0 (F := Ideal)) W (Proc.devRef .tc main_arg0) = W (Proc.devRef .tc main_arg0) := by
  dsimp only [hostOps0]; after_results
theorem stretch0_keeps_main_arg1 : StableHlo.after (hostOps0 (F := Ideal)) W (Proc.devRef .tc main_arg1) = W (Proc.devRef .tc main_arg1) := by
  dsimp only [hostOps0]; after_results
theorem stretch0_keeps_main_arg2 : StableHlo.after (hostOps0 (F := Ideal)) W (Proc.devRef .tc main_arg2) = W (Proc.devRef .tc main_arg2) := by
  dsimp only [hostOps0]; after_results
theorem stretch0_keeps_main_arg3 : StableHlo.after (hostOps0 (F := Ideal)) W (Proc.devRef .tc main_arg3) = W (Proc.devRef .tc main_arg3) := by
  dsimp only [hostOps0]; after_results
theorem stretch0_keeps_main_arg4 : StableHlo.after (hostOps0 (F := Ideal)) W (Proc.devRef .tc main_arg4) = W (Proc.devRef .tc main_arg4) := by
  dsimp only [hostOps0]; after_results
theorem stretch0_keeps_main_arg5 : StableHlo.after (hostOps0 (F := Ideal)) W (Proc.devRef .tc main_arg5) = W (Proc.devRef .tc main_arg5) := by
  dsimp only [hostOps0]; after_results
theorem stretch0_keeps_main_arg6 : StableHlo.after (hostOps0 (F := Ideal)) W (Proc.devRef .tc main_arg6) = W (Proc.devRef .tc main_arg6) := by
  dsimp only [hostOps0]; after_results
theorem stretch0_keeps_main_arg7 : StableHlo.after (hostOps0 (F := Ideal)) W (Proc.devRef .tc main_arg7) = W (Proc.devRef .tc main_arg7) := by
  dsimp only [hostOps0]; after_results
theorem stretch0_keeps_main_arg8 : StableHlo.after (hostOps0 (F := Ideal)) W (Proc.devRef .tc main_arg8) = W (Proc.devRef .tc main_arg8) := by
  dsimp only [hostOps0]; after_results
theorem stretch0_keeps_main_arg9 : StableHlo.after (hostOps0 (F := Ideal)) W (Proc.devRef .tc main_arg9) = W (Proc.devRef .tc main_arg9) := by
  dsimp only [hostOps0]; after_results
theorem stretch0_keeps_main_arg10 : StableHlo.after (hostOps0 (F := Ideal)) W (Proc.devRef .tc main_arg10) = W (Proc.devRef .tc main_arg10) := by
  dsimp only [hostOps0]; after_results
theorem stretch0_keeps_main_arg11 : StableHlo.after (hostOps0 (F := Ideal)) W (Proc.devRef .tc main_arg11) = W (Proc.devRef .tc main_arg11) := by
  dsimp only [hostOps0]; after_results
theorem stretch0_keeps_main_arg12 : StableHlo.after (hostOps0 (F := Ideal)) W (Proc.devRef .tc main_arg12) = W (Proc.devRef .tc main_arg12) := by
  dsimp only [hostOps0]; after_results
theorem stretch0_keeps_main_arg13 : StableHlo.after (hostOps0 (F := Ideal)) W (Proc.devRef .tc main_arg13) = W (Proc.devRef .tc main_arg13) := by
  dsimp only [hostOps0]; after_results

/-! ### Host stretch 1 -/

theorem stretch1_sum : StableHlo.after (hostOps1 (F := Ideal)) W (Proc.devRef .tc main_v28)
    = sumNeighbours2 (W (Proc.devRef .tc main_v17)) (W (Proc.devRef .tc main_v1)) (W (Proc.devRef .tc main_v3)) := by
  dsimp only [hostOps1]; after_results_simp <;> rfl
theorem stretch1_biasA : StableHlo.after (hostOps1 (F := Ideal)) W (Proc.devRef .tc main_v29)
    = shapeCast _ (W (Proc.devRef .tc main_arg7)) shapeCasts_S256_S1x256 := by
  dsimp only [hostOps1]; after_results; rfl
theorem stretch1_biasB : StableHlo.after (hostOps1 (F := Ideal)) W (Proc.devRef .tc main_v30)
    = shapeCast _ (W (Proc.devRef .tc main_arg9)) shapeCasts_S256_S1x256 := by
  dsimp only [hostOps1]; after_results; rfl
theorem stretch1_keeps_main_v1 : StableHlo.after (hostOps1 (F := Ideal)) W (Proc.devRef .tc main_v1) = W (Proc.devRef .tc main_v1) := by
  dsimp only [hostOps1]; after_results
theorem stretch1_keeps_main_v3 : StableHlo.after (hostOps1 (F := Ideal)) W (Proc.devRef .tc main_v3) = W (Proc.devRef .tc main_v3) := by
  dsimp only [hostOps1]; after_results
theorem stretch1_keeps_main_arg0 : StableHlo.after (hostOps1 (F := Ideal)) W (Proc.devRef .tc main_arg0) = W (Proc.devRef .tc main_arg0) := by
  dsimp only [hostOps1]; after_results
theorem stretch1_keeps_main_arg1 : StableHlo.after (hostOps1 (F := Ideal)) W (Proc.devRef .tc main_arg1) = W (Proc.devRef .tc main_arg1) := by
  dsimp only [hostOps1]; after_results
theorem stretch1_keeps_main_arg2 : StableHlo.after (hostOps1 (F := Ideal)) W (Proc.devRef .tc main_arg2) = W (Proc.devRef .tc main_arg2) := by
  dsimp only [hostOps1]; after_results
theorem stretch1_keeps_main_arg3 : StableHlo.after (hostOps1 (F := Ideal)) W (Proc.devRef .tc main_arg3) = W (Proc.devRef .tc main_arg3) := by
  dsimp only [hostOps1]; after_results
theorem stretch1_keeps_main_arg4 : StableHlo.after (hostOps1 (F := Ideal)) W (Proc.devRef .tc main_arg4) = W (Proc.devRef .tc main_arg4) := by
  dsimp only [hostOps1]; after_results
theorem stretch1_keeps_main_arg5 : StableHlo.after (hostOps1 (F := Ideal)) W (Proc.devRef .tc main_arg5) = W (Proc.devRef .tc main_arg5) := by
  dsimp only [hostOps1]; after_results
theorem stretch1_keeps_main_arg6 : StableHlo.after (hostOps1 (F := Ideal)) W (Proc.devRef .tc main_arg6) = W (Proc.devRef .tc main_arg6) := by
  dsimp only [hostOps1]; after_results
theorem stretch1_keeps_main_arg7 : StableHlo.after (hostOps1 (F := Ideal)) W (Proc.devRef .tc main_arg7) = W (Proc.devRef .tc main_arg7) := by
  dsimp only [hostOps1]; after_results
theorem stretch1_keeps_main_arg8 : StableHlo.after (hostOps1 (F := Ideal)) W (Proc.devRef .tc main_arg8) = W (Proc.devRef .tc main_arg8) := by
  dsimp only [hostOps1]; after_results
theorem stretch1_keeps_main_arg9 : StableHlo.after (hostOps1 (F := Ideal)) W (Proc.devRef .tc main_arg9) = W (Proc.devRef .tc main_arg9) := by
  dsimp only [hostOps1]; after_results
theorem stretch1_keeps_main_arg10 : StableHlo.after (hostOps1 (F := Ideal)) W (Proc.devRef .tc main_arg10) = W (Proc.devRef .tc main_arg10) := by
  dsimp only [hostOps1]; after_results
theorem stretch1_keeps_main_arg11 : StableHlo.after (hostOps1 (F := Ideal)) W (Proc.devRef .tc main_arg11) = W (Proc.devRef .tc main_arg11) := by
  dsimp only [hostOps1]; after_results
theorem stretch1_keeps_main_arg12 : StableHlo.after (hostOps1 (F := Ideal)) W (Proc.devRef .tc main_arg12) = W (Proc.devRef .tc main_arg12) := by
  dsimp only [hostOps1]; after_results
theorem stretch1_keeps_main_arg13 : StableHlo.after (hostOps1 (F := Ideal)) W (Proc.devRef .tc main_arg13) = W (Proc.devRef .tc main_arg13) := by
  dsimp only [hostOps1]; after_results

/-! ### Host stretch 2 -/

theorem stretch2_sum : StableHlo.after (hostOps2 (F := Ideal)) W (Proc.devRef .tc main_v42)
    = sumNeighbours2 (W (Proc.devRef .tc main_v31)) (W (Proc.devRef .tc main_v1)) (W (Proc.devRef .tc main_v3)) := by
  dsimp only [hostOps2]; after_results_simp <;> rfl
theorem stretch2_biasA : StableHlo.after (hostOps2 (F := Ideal)) W (Proc.devRef .tc main_v43)
    = shapeCast _ (W (Proc.devRef .tc main_arg11)) shapeCasts_S128_S1x128 := by
  dsimp only [hostOps2]; after_results; rfl
theorem stretch2_biasB : StableHlo.after (hostOps2 (F := Ideal)) W (Proc.devRef .tc main_v44)
    = shapeCast _ (W (Proc.devRef .tc main_arg13)) shapeCasts_S128_S1x128 := by
  dsimp only [hostOps2]; after_results; rfl
theorem stretch2_keeps_main_v1 : StableHlo.after (hostOps2 (F := Ideal)) W (Proc.devRef .tc main_v1) = W (Proc.devRef .tc main_v1) := by
  dsimp only [hostOps2]; after_results
theorem stretch2_keeps_main_v3 : StableHlo.after (hostOps2 (F := Ideal)) W (Proc.devRef .tc main_v3) = W (Proc.devRef .tc main_v3) := by
  dsimp only [hostOps2]; after_results
theorem stretch2_keeps_main_arg0 : StableHlo.after (hostOps2 (F := Ideal)) W (Proc.devRef .tc main_arg0) = W (Proc.devRef .tc main_arg0) := by
  dsimp only [hostOps2]; after_results
theorem stretch2_keeps_main_arg1 : StableHlo.after (hostOps2 (F := Ideal)) W (Proc.devRef .tc main_arg1) = W (Proc.devRef .tc main_arg1) := by
  dsimp only [hostOps2]; after_results
theorem stretch2_keeps_main_arg2 : StableHlo.after (hostOps2 (F := Ideal)) W (Proc.devRef .tc main_arg2) = W (Proc.devRef .tc main_arg2) := by
  dsimp only [hostOps2]; after_results
theorem stretch2_keeps_main_arg3 : StableHlo.after (hostOps2 (F := Ideal)) W (Proc.devRef .tc main_arg3) = W (Proc.devRef .tc main_arg3) := by
  dsimp only [hostOps2]; after_results
theorem stretch2_keeps_main_arg4 : StableHlo.after (hostOps2 (F := Ideal)) W (Proc.devRef .tc main_arg4) = W (Proc.devRef .tc main_arg4) := by
  dsimp only [hostOps2]; after_results
theorem stretch2_keeps_main_arg5 : StableHlo.after (hostOps2 (F := Ideal)) W (Proc.devRef .tc main_arg5) = W (Proc.devRef .tc main_arg5) := by
  dsimp only [hostOps2]; after_results
theorem stretch2_keeps_main_arg6 : StableHlo.after (hostOps2 (F := Ideal)) W (Proc.devRef .tc main_arg6) = W (Proc.devRef .tc main_arg6) := by
  dsimp only [hostOps2]; after_results
theorem stretch2_keeps_main_arg7 : StableHlo.after (hostOps2 (F := Ideal)) W (Proc.devRef .tc main_arg7) = W (Proc.devRef .tc main_arg7) := by
  dsimp only [hostOps2]; after_results
theorem stretch2_keeps_main_arg8 : StableHlo.after (hostOps2 (F := Ideal)) W (Proc.devRef .tc main_arg8) = W (Proc.devRef .tc main_arg8) := by
  dsimp only [hostOps2]; after_results
theorem stretch2_keeps_main_arg9 : StableHlo.after (hostOps2 (F := Ideal)) W (Proc.devRef .tc main_arg9) = W (Proc.devRef .tc main_arg9) := by
  dsimp only [hostOps2]; after_results
theorem stretch2_keeps_main_arg10 : StableHlo.after (hostOps2 (F := Ideal)) W (Proc.devRef .tc main_arg10) = W (Proc.devRef .tc main_arg10) := by
  dsimp only [hostOps2]; after_results
theorem stretch2_keeps_main_arg11 : StableHlo.after (hostOps2 (F := Ideal)) W (Proc.devRef .tc main_arg11) = W (Proc.devRef .tc main_arg11) := by
  dsimp only [hostOps2]; after_results
theorem stretch2_keeps_main_arg12 : StableHlo.after (hostOps2 (F := Ideal)) W (Proc.devRef .tc main_arg12) = W (Proc.devRef .tc main_arg12) := by
  dsimp only [hostOps2]; after_results
theorem stretch2_keeps_main_arg13 : StableHlo.after (hostOps2 (F := Ideal)) W (Proc.devRef .tc main_arg13) = W (Proc.devRef .tc main_arg13) := by
  dsimp only [hostOps2]; after_results

end Cert.KernelValue

end
-- ==== Proof.KernelValue.lean ====
/-
  The idealized kernel's result as the three-update function of `Cert.Spec`.

  The run's final result buffer holds what the third launch's write-backs leave (`run_result`). Each launch's result
  array is the row network of every row of the arrays the launch finds (`final0`, `final1`, `final2`), and what a
  launch finds is what the host stretch before it wrote: the neighbour sum of the previous features and the two bias
  vectors recast as rows (`stretch·`). Between those writes nothing touches the arguments or the two index arrays cut
  from the edge list, which every later stretch reads again (`Carried`). Reading a recast bias row back along the row
  gives the bias vector, so each launch is `Spec.rows` of its features, weights and biases; chaining the three gives
  `Spec.G` of the arguments.
-/
import proofs.«140403_j55920474194401_1_alg».proof.Proof.KernelRun
import proofs.«140403_j55920474194401_1_alg».proof.Proof.Launch0
import proofs.«140403_j55920474194401_1_alg».proof.Proof.Launch1
import proofs.«140403_j55920474194401_1_alg».proof.Proof.Launch2
import proofs.«140403_j55920474194401_1_alg».proof.Proof.HostStretch
import Idealize.ShloMosaic.Lib.ValueLayout

set_option maxRecDepth 16384

noncomputable section

namespace Cert.KernelValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

/-! ## A bias vector recast as a row -/

/-- A vector of 256 entries recast as one row `[1, 256]` and read along that row is the vector. -/
theorem row_of_vector256 (b : S256.Idx → EReal) :
    (fun i : (⟨1, ![256]⟩ : Shape).Idx => (shapeCast S1x256 b shapeCasts_S256_S1x256 : S1x256.Idx → EReal) (ix2 (0 : Fin 1) (i 0))) = b := by
  funext i
  obtain ⟨k, rfl⟩ : ∃ k : Fin 256, i = ix1 k := ⟨i 0, eq_ix1 i⟩
  exact shapeCast_a_1a_apply b shapeCasts_S256_S1x256 0 k

/-- A vector of 128 entries recast as one row `[1, 128]` and read along that row is the vector. -/
theorem row_of_vector128 (b : S128.Idx → EReal) :
    (fun i : (⟨1, ![128]⟩ : Shape).Idx => (shapeCast S1x128 b shapeCasts_S128_S1x128 : S1x128.Idx → EReal) (ix2 (0 : Fin 1) (i 0))) = b := by
  funext i
  obtain ⟨k, rfl⟩ : ∃ k : Fin 128, i = ix1 k := ⟨i 0, eq_ix1 i⟩
  exact shapeCast_a_1a_apply b shapeCasts_S128_S1x128 0 k

theorem layer0_rows (a0 : S100000x128.Idx → EReal) (a1 : S128x256.Idx → EReal) (b : S256.Idx → EReal)
    (a3 : S256x256.Idx → EReal) (b' : S256.Idx → EReal) :
    layer0 a0 a1 (shapeCast S1x256 b shapeCasts_S256_S1x256) a3 (shapeCast S1x256 b' shapeCasts_S256_S1x256)
      = Spec.rows a0 a1 b a3 b' := by
  unfold layer0
  rw [row_of_vector256, row_of_vector256]

theorem layer1_rows (a0 : S100000x256.Idx → EReal) (a1 : S256x256.Idx → EReal) (b : S256.Idx → EReal)
    (a3 : S256x256.Idx → EReal) (b' : S256.Idx → EReal) :
    layer1 a0 a1 (shapeCast S1x256 b shapeCasts_S256_S1x256) a3 (shapeCast S1x256 b' shapeCasts_S256_S1x256)
      = Spec.rows a0 a1 b a3 b' := by
  unfold layer1
  rw [row_of_vector256, row_of_vector256]

theorem layer2_rows (a0 : S100000x256.Idx → EReal) (a1 : S256x128.Idx → EReal) (b : S128.Idx → EReal)
    (a3 : S128x128.Idx → EReal) (b' : S128.Idx → EReal) :
    layer2 a0 a1 (shapeCast S1x128 b shapeCasts_S128_S1x128) a3 (shapeCast S1x128 b' shapeCasts_S128_S1x128)
      = Spec.rows a0 a1 b a3 b' := by
  unfold layer2
  rw [row_of_vector128, row_of_vector128]

/-! ## What every boundary's contents carry -/

variable (m : (ℓ : Loc nD τ sig) → Buf (Elt Ideal) ℓ) (ρ : Dev nD → PrngReg) (c : Dev nD)

/-- At contents `Wc` of core `c`'s buffers: every argument array is as launched, and the two index arrays are the
    edge list's rows. -/
structure Carried (Wc : Valuation τ sig (Elt Ideal)) : Prop where
  arg0 : Wc (Proc.devRef .tc main_arg0) = m ((c : Thread nD τ).loc main_arg0)
  arg1 : Wc (Proc.devRef .tc main_arg1) = m ((c : Thread nD τ).loc main_arg1)
  arg2 : Wc (Proc.devRef .tc main_arg2) = m ((c : Thread nD τ).loc main_arg2)
  arg3 : Wc (Proc.devRef .tc main_arg3) = m ((c : Thread nD τ).loc main_arg3)
  arg4 : Wc (Proc.devRef .tc main_arg4) = m ((c : Thread nD τ).loc main_arg4)
  arg5 : Wc (Proc.devRef .tc main_arg5) = m ((c : Thread nD τ).loc main_arg5)
  arg6 : Wc (Proc.devRef .tc main_arg6) = m ((c : Thread nD τ).loc main_arg6)
  arg7 : Wc (Proc.devRef .tc main_arg7) = m ((c : Thread nD τ).loc main_arg7)
  arg8 : Wc (Proc.devRef .tc main_arg8) = m ((c : Thread nD τ).loc main_arg8)
  arg9 : Wc (Proc.devRef .tc main_arg9) = m ((c : Thread nD τ).loc main_arg9)
  arg10 : Wc (Proc.devRef .tc main_arg10) = m ((c : Thread nD τ).loc main_arg10)
  arg11 : Wc (Proc.devRef .tc main_arg11) = m ((c : Thread nD τ).loc main_arg11)
  arg12 : Wc (Proc.devRef .tc main_arg12) = m ((c : Thread nD τ).loc main_arg12)
  arg13 : Wc (Proc.devRef .tc main_arg13) = m ((c : Thread nD τ).loc main_arg13)
  src : Wc (Proc.devRef .tc main_v1) = sources (m ((c : Thread nD τ).loc main_arg1))
  tgt : Wc (Proc.devRef .tc main_v3) = targets (m ((c : Thread nD τ).loc main_arg1))

/-- After host stretch 0: nothing carried is written. -/
theorem carried1 : Carried m c (W1 m ρ c) :=
  ⟨stretch0_keeps_main_arg0 (W0 m ρ c),
   stretch0_keeps_main_arg1 (W0 m ρ c),
   stretch0_keeps_main_arg2 (W0 m ρ c),
   stretch0_keeps_main_arg3 (W0 m ρ c),
   stretch0_keeps_main_arg4 (W0 m ρ c),
   stretch0_keeps_main_arg5 (W0 m ρ c),
   stretch0_keeps_main_arg6 (W0 m ρ c),
   stretch0_keeps_main_arg7 (W0 m ρ c),
   stretch0_keeps_main_arg8 (W0 m ρ c),
   stretch0_keeps_main_arg9 (W0 m ρ c),
   stretch0_keeps_main_arg10 (W0 m ρ c),
   stretch0_keeps_main_arg11 (W0 m ρ c),
   stretch0_keeps_main_arg12 (W0 m ρ c),
   stretch0_keeps_main_arg13 (W0 m ρ c),
   stretch0_sources (W0 m ρ c),
   stretch0_targets (W0 m ρ c)⟩

/-- After launch 0: an input array of the launch ends as it was found, every other carried buffer is none of its arrays. -/
theorem carried2 : Carried m c (W2 m ρ c) :=
  ⟨(W2_of_ne m ρ c main_arg0 (by decide)).trans (carried1 m ρ c).arg0,
   (W2_of_ne m ρ c main_arg1 (by decide)).trans (carried1 m ρ c).arg1,
   ((W2_arr m ρ c 1).trans (((dat0 (V1 m ρ) c).arrAt_in 1 rfl _).trans (A_eq0 (V1 m ρ) c 1))).trans (carried1 m ρ c).arg2,
   (W2_of_ne m ρ c main_arg3 (by decide)).trans (carried1 m ρ c).arg3,
   ((W2_arr m ρ c 3).trans (((dat0 (V1 m ρ) c).arrAt_in 3 rfl _).trans (A_eq0 (V1 m ρ) c 3))).trans (carried1 m ρ c).arg4,
   (W2_of_ne m ρ c main_arg5 (by decide)).trans (carried1 m ρ c).arg5,
   (W2_of_ne m ρ c main_arg6 (by decide)).trans (carried1 m ρ c).arg6,
   (W2_of_ne m ρ c main_arg7 (by decide)).trans (carried1 m ρ c).arg7,
   (W2_of_ne m ρ c main_arg8 (by decide)).trans (carried1 m ρ c).arg8,
   (W2_of_ne m ρ c main_arg9 (by decide)).trans (carried1 m ρ c).arg9,
   (W2_of_ne m ρ c main_arg10 (by decide)).trans (carried1 m ρ c).arg10,
   (W2_of_ne m ρ c main_arg11 (by decide)).trans (carried1 m ρ c).arg11,
   (W2_of_ne m ρ c main_arg12 (by decide)).trans (carried1 m ρ c).arg12,
   (W2_of_ne m ρ c main_arg13 (by decide)).trans (carried1 m ρ c).arg13,
   (W2_of_ne m ρ c main_v1 (by decide)).trans (carried1 m ρ c).src,
   (W2_of_ne m ρ c main_v3 (by decide)).trans (carried1 m ρ c).tgt⟩

/-- After host stretch 1: nothing carried is written. -/
theorem carried3 : Carried m c (W3 m ρ c) :=
  ⟨(stretch1_keeps_main_arg0 (W2 m ρ c)).trans (carried2 m ρ c).arg0,
   (stretch1_keeps_main_arg1 (W2 m ρ c)).trans (carried2 m ρ c).arg1,
   (stretch1_keeps_main_arg2 (W2 m ρ c)).trans (carried2 m ρ c).arg2,
   (stretch1_keeps_main_arg3 (W2 m ρ c)).trans (carried2 m ρ c).arg3,
   (stretch1_keeps_main_arg4 (W2 m ρ c)).trans (carried2 m ρ c).arg4,
   (stretch1_keeps_main_arg5 (W2 m ρ c)).trans (carried2 m ρ c).arg5,
   (stretch1_keeps_main_arg6 (W2 m ρ c)).trans (carried2 m ρ c).arg6,
   (stretch1_keeps_main_arg7 (W2 m ρ c)).trans (carried2 m ρ c).arg7,
   (stretch1_keeps_main_arg8 (W2 m ρ c)).trans (carried2 m ρ c).arg8,
   (stretch1_keeps_main_arg9 (W2 m ρ c)).trans (carried2 m ρ c).arg9,
   (stretch1_keeps_main_arg10 (W2 m ρ c)).trans (carried2 m ρ c).arg10,
   (stretch1_keeps_main_arg11 (W2 m ρ c)).trans (carried2 m ρ c).arg11,
   (stretch1_keeps_main_arg12 (W2 m ρ c)).trans (carried2 m ρ c).arg12,
   (stretch1_keeps_main_arg13 (W2 m ρ c)).trans (carried2 m ρ c).arg13,
   (stretch1_keeps_main_v1 (W2 m ρ c)).trans (carried2 m ρ c).src,
   (stretch1_keeps_main_v3 (W2 m ρ c)).trans (carried2 m ρ c).tgt⟩

/-- After launch 1: an input array of the launch ends as it was found, every other carried buffer is none of its arrays. -/
theorem carried4 : Carried m c (W4 m ρ c) :=
  ⟨(W4_of_ne m ρ c main_arg0 (by decide)).trans (carried3 m ρ c).arg0,
   (W4_of_ne m ρ c main_arg1 (by decide)).trans (carried3 m ρ c).arg1,
   (W4_of_ne m ρ c main_arg2 (by decide)).trans (carried3 m ρ c).arg2,
   (W4_of_ne m ρ c main_arg3 (by decide)).trans (carried3 m ρ c).arg3,
   (W4_of_ne m ρ c main_arg4 (by decide)).trans (carried3 m ρ c).arg4,
   (W4_of_ne m ρ c main_arg5 (by decide)).trans (carried3 m ρ c).arg5,
   ((W4_arr m ρ c 1).trans (((dat1 (V3 m ρ) c).arrAt_in 1 rfl _).trans (A_eq1 (V3 m ρ) c 1))).trans (carried3 m ρ c).arg6,
   (W4_of_ne m ρ c main_arg7 (by decide)).trans (carried3 m ρ c).arg7,
   ((W4_arr m ρ c 3).trans (((dat1 (V3 m ρ) c).arrAt_in 3 rfl _).trans (A_eq1 (V3 m ρ) c 3))).trans (carried3 m ρ c).arg8,
   (W4_of_ne m ρ c main_arg9 (by decide)).trans (carried3 m ρ c).arg9,
   (W4_of_ne m ρ c main_arg10 (by decide)).trans (carried3 m ρ c).arg10,
   (W4_of_ne m ρ c main_arg11 (by decide)).trans (carried3 m ρ c).arg11,
   (W4_of_ne m ρ c main_arg12 (by decide)).trans (carried3 m ρ c).arg12,
   (W4_of_ne m ρ c main_arg13 (by decide)).trans (carried3 m ρ c).arg13,
   (W4_of_ne m ρ c main_v1 (by decide)).trans (carried3 m ρ c).src,
   (W4_of_ne m ρ c main_v3 (by decide)).trans (carried3 m ρ c).tgt⟩

/-- After host stretch 2: nothing carried is written. -/
theorem carried5 : Carried m c (W5 m ρ c) :=
  ⟨(stretch2_keeps_main_arg0 (W4 m ρ c)).trans (carried4 m ρ c).arg0,
   (stretch2_keeps_main_arg1 (W4 m ρ c)).trans (carried4 m ρ c).arg1,
   (stretch2_keeps_main_arg2 (W4 m ρ c)).trans (carried4 m ρ c).arg2,
   (stretch2_keeps_main_arg3 (W4 m ρ c)).trans (carried4 m ρ c).arg3,
   (stretch2_keeps_main_arg4 (W4 m ρ c)).trans (carried4 m ρ c).arg4,
   (stretch2_keeps_main_arg5 (W4 m ρ c)).trans (carried4 m ρ c).arg5,
   (stretch2_keeps_main_arg6 (W4 m ρ c)).trans (carried4 m ρ c).arg6,
   (stretch2_keeps_main_arg7 (W4 m ρ c)).trans (carried4 m ρ c).arg7,
   (stretch2_keeps_main_arg8 (W4 m ρ c)).trans (carried4 m ρ c).arg8,
   (stretch2_keeps_main_arg9 (W4 m ρ c)).trans (carried4 m ρ c).arg9,
   (stretch2_keeps_main_arg10 (W4 m ρ c)).trans (carried4 m ρ c).arg10,
   (stretch2_keeps_main_arg11 (W4 m ρ c)).trans (carried4 m ρ c).arg11,
   (stretch2_keeps_main_arg12 (W4 m ρ c)).trans (carried4 m ρ c).arg12,
   (stretch2_keeps_main_arg13 (W4 m ρ c)).trans (carried4 m ρ c).arg13,
   (stretch2_keeps_main_v1 (W4 m ρ c)).trans (carried4 m ρ c).src,
   (stretch2_keeps_main_v3 (W4 m ρ c)).trans (carried4 m ρ c).tgt⟩

/-! ## The three launches' results, in turn -/

theorem out0 : W2 m ρ c (Proc.devRef .tc main_v17) = (Spec.rows (neighbours₁ (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5))) := by
  refine (W2_arr m ρ c 5).trans ((final0 (V1 m ρ) c).trans ?_)
  have e0 : V1 m ρ c main_v14 = neighbours₁ (m ((c : Thread nD τ).loc main_arg0)) (m ((c : Thread nD τ).loc main_arg1)) := by
    refine (stretch0_sum (W0 m ρ c)).trans ?_
    rfl
  have e1 : V1 m ρ c main_arg2 = (m ((c : Thread nD τ).loc main_arg2)) := (carried1 m ρ c).arg2
  have e2 : V1 m ρ c main_v15 = shapeCast _ (m ((c : Thread nD τ).loc main_arg3)) shapeCasts_S256_S1x256 :=
    (stretch0_biasA (W0 m ρ c)).trans (rfl)
  have e3 : V1 m ρ c main_arg4 = (m ((c : Thread nD τ).loc main_arg4)) := (carried1 m ρ c).arg4
  have e4 : V1 m ρ c main_v16 = shapeCast _ (m ((c : Thread nD τ).loc main_arg5)) shapeCasts_S256_S1x256 :=
    (stretch0_biasB (W0 m ρ c)).trans (rfl)
  rw [e0, e1, e2, e3, e4]
  exact layer0_rows _ _ _ _ _

theorem out1 : W4 m ρ c (Proc.devRef .tc main_v31) = (Spec.rows (neighbours₂ (Spec.rows (neighbours₁ (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5))) (m ((c : Thread nD τ).loc main_arg1))) (m ((c : Thread nD τ).loc main_arg6)) (m ((c : Thread nD τ).loc main_arg7)) (m ((c : Thread nD τ).loc main_arg8)) (m ((c : Thread nD τ).loc main_arg9))) := by
  refine (W4_arr m ρ c 5).trans ((final1 (V3 m ρ) c).trans ?_)
  have e0 : V3 m ρ c main_v28 = neighbours₂ (Spec.rows (neighbours₁ (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5))) (m ((c : Thread nD τ).loc main_arg1)) := by
    refine (stretch1_sum (W2 m ρ c)).trans ?_
    rw [out0 m ρ c, (carried2 m ρ c).src, (carried2 m ρ c).tgt]; rfl
  have e1 : V3 m ρ c main_arg6 = (m ((c : Thread nD τ).loc main_arg6)) := (carried3 m ρ c).arg6
  have e2 : V3 m ρ c main_v29 = shapeCast _ (m ((c : Thread nD τ).loc main_arg7)) shapeCasts_S256_S1x256 :=
    (stretch1_biasA (W2 m ρ c)).trans (by rw [(carried2 m ρ c).arg7])
  have e3 : V3 m ρ c main_arg8 = (m ((c : Thread nD τ).loc main_arg8)) := (carried3 m ρ c).arg8
  have e4 : V3 m ρ c main_v30 = shapeCast _ (m ((c : Thread nD τ).loc main_arg9)) shapeCasts_S256_S1x256 :=
    (stretch1_biasB (W2 m ρ c)).trans (by rw [(carried2 m ρ c).arg9])
  rw [e0, e1, e2, e3, e4]
  exact layer1_rows _ _ _ _ _

theorem out2 : (dat2 (V5 m ρ) c).arrAt 5 cfg2.N = (Spec.rows (neighbours₂ (Spec.rows (neighbours₂ (Spec.rows (neighbours₁ (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5))) (m ((c : Thread nD τ).loc main_arg1))) (m ((c : Thread nD τ).loc main_arg6)) (m ((c : Thread nD τ).loc main_arg7)) (m ((c : Thread nD τ).loc main_arg8)) (m ((c : Thread nD τ).loc main_arg9))) (m ((c : Thread nD τ).loc main_arg1))) (m ((c : Thread nD τ).loc main_arg10)) (m ((c : Thread nD τ).loc main_arg11)) (m ((c : Thread nD τ).loc main_arg12)) (m ((c : Thread nD τ).loc main_arg13))) := by
  refine (rfl : (dat2 (V5 m ρ) c).arrAt 5 cfg2.N = _).trans ((final2 (V5 m ρ) c).trans ?_)
  have e0 : V5 m ρ c main_v42 = neighbours₂ (Spec.rows (neighbours₂ (Spec.rows (neighbours₁ (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5))) (m ((c : Thread nD τ).loc main_arg1))) (m ((c : Thread nD τ).loc main_arg6)) (m ((c : Thread nD τ).loc main_arg7)) (m ((c : Thread nD τ).loc main_arg8)) (m ((c : Thread nD τ).loc main_arg9))) (m ((c : Thread nD τ).loc main_arg1)) := by
    refine (stretch2_sum (W4 m ρ c)).trans ?_
    rw [out1 m ρ c, (carried4 m ρ c).src, (carried4 m ρ c).tgt]; rfl
  have e1 : V5 m ρ c main_arg10 = (m ((c : Thread nD τ).loc main_arg10)) := (carried5 m ρ c).arg10
  have e2 : V5 m ρ c main_v43 = shapeCast _ (m ((c : Thread nD τ).loc main_arg11)) shapeCasts_S128_S1x128 :=
    (stretch2_biasA (W4 m ρ c)).trans (by rw [(carried4 m ρ c).arg11])
  have e3 : V5 m ρ c main_arg12 = (m ((c : Thread nD τ).loc main_arg12)) := (carried5 m ρ c).arg12
  have e4 : V5 m ρ c main_v44 = shapeCast _ (m ((c : Thread nD τ).loc main_arg13)) shapeCasts_S128_S1x128 :=
    (stretch2_biasB (W4 m ρ c)).trans (by rw [(carried4 m ρ c).arg13])
  rw [e0, e1, e2, e3, e4]
  exact layer2_rows _ _ _ _ _

/-- The third launch's result array is the three-update function of the argument arrays. -/
theorem result_eq : (dat2 (V5 m ρ) c).arrAt 5 cfg2.N
    = Spec.G neighbours₁ neighbours₂ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  out2 m ρ c

/-! ## The run -/

/-- Every weakly fair execution of the idealized kernel ends, faultless, with its result at the three-update function of
    the argument arrays, and the arguments as they began. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v45)
        = Spec.G neighbours₁ neighbours₂ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (result_eq m ρ c), (h c).2⟩) (run_result m ρ)

end Cert.KernelValue

end
-- ==== Proof.RefValue.lean ====
/-
  The reference program's value as the three-update function of `Cert.Spec`.

  The reference updates the node features three times. Each update adds to every node's row the rows of its
  in-neighbours (a gather along the edge list's sources followed by a scatter-add into the edge list's targets, with
  negative source indices wrapped once by the number of nodes), and then sends every row through a two-layer network
  with a rectifier after each layer. The neighbour sum is never opened here: it is named as one function of the
  feature array and the edge list (`agg₁` on 128 features, `agg₂` on 256). What is proved entry by entry is that each
  network stretch, a contraction, a bias row broadcast over all nodes, a maximum with zero, twice, is `Cert.Spec.rows`.
-/
import proofs.«140403_j55920474194401_1_alg».proof.Proof.Gen.ReferenceIdeal.Read
import proofs.«140403_j55920474194401_1_alg».proof.Proof.Spec
import Idealize.ShloMosaic.Lib.ValueIdx
import Idealize.ShloMosaic.Lib.Pipeline.Value
import Idealize.ShloMosaic.PureOps.Ideal.Laws

noncomputable section

namespace Cert.RefValue

open Cert.ReferenceIdeal Cert.ReferenceIdeal.Gen Idealize.ShloMosaic Idealize.ShloMosaic.TcCoe Idealize.SL.Sem Idealize.ShloMosaic.StableHlo
open Idealize.ShloMosaic.ValueIdx

/-! ## The neighbour sum, as one function -/

/-- The neighbour sum on 128 features: every node's own row plus the rows of the sources of its incoming edges. -/
def agg₁ (x : (⟨S100000x128, .f32⟩ : BufTy).Contents (Elt Ideal)) (e : (⟨S2x640000, .i32⟩ : BufTy).Contents (Elt Ideal)) :
    (⟨S100000x128, .f32⟩ : BufTy).Contents (Elt Ideal) :=
  Read.val_main_v14 (F := Ideal) x e

/-- The neighbour sum on 256 features, from an arbitrary feature array `h`: the source indices (row 0 of the edge
    list) are wrapped, the rows of `h` at those indices are gathered, one per edge, and added into an all-zero array at
    the target indices (row 1 of the edge list); `h` itself is added to the result. -/
def agg₂ (h : (⟨S100000x256, .f32⟩ : BufTy).Contents (Elt Ideal)) (e : (⟨S2x640000, .i32⟩ : BufTy).Contents (Elt Ideal)) :
    (⟨S100000x256, .f32⟩ : BufTy).Contents (Elt Ideal) :=
  addf h (Host.scatterAdd scatter_S100000x256_S640000x1_S640000x256_1_0_0_1
    (broadcastInDim S100000x256 ![] bcast_S_S100000x256 (constant (F := Ideal) S_ .f32 0x00000000#32))
    (broadcastInDim S640000x1 ![0] bcast_S640000_S640000x1_0 (Read.val_main_v3 (F := Ideal) e))
    (Host.gather gather_S100000x256_S640000x1_S640000x256_1_0_n_n_0_1_1256 h
      (broadcastInDim S640000x1 ![0] bcast_S640000_S640000x1_0
        (select (cmpi .slt (Read.val_main_v1 (F := Ideal) e) (broadcastInDim S640000 ![] bcast_S_S640000 (constantI S_ 32 0#32)))
          (addi (Read.val_main_v1 (F := Ideal) e) (broadcastInDim S640000 ![] bcast_S_S640000 (constantI S_ 32 100000#32)))
          (Read.val_main_v1 (F := Ideal) e)))))

/-- The second update's neighbour sum is `agg₂` of the first update's output. -/
theorem val_main_v37_eq (x0 : (⟨S100000x128, .f32⟩ : BufTy).Contents (Elt Ideal)) (x1 : (⟨S2x640000, .i32⟩ : BufTy).Contents (Elt Ideal))
    (x2 : (⟨S128x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal)) :
    Read.val_main_v37 (F := Ideal) x0 x1 x2 x3 x4 x5 = agg₂ (Read.val_main_v26 (F := Ideal) x0 x1 x2 x3 x4 x5) x1 := by
  unfold Read.val_main_v37 Read.val_main_v36 Read.val_main_v33
  generalize Read.val_main_v26 (F := Ideal) x0 x1 x2 x3 x4 x5 = h
  unfold agg₂ Read.val_main_v34 Read.val_main_cst_5 Read.val_main_v35 Read.val_main_v32 Read.val_main_v31 Read.val_main_v30
    Read.val_main_v29 Read.val_main_c_4 Read.val_main_v28 Read.val_main_v27 Read.val_main_c_3
  rfl

/-- The third update's neighbour sum is `agg₂` of the second update's output. -/
theorem val_main_v60_eq (x0 : (⟨S100000x128, .f32⟩ : BufTy).Contents (Elt Ideal)) (x1 : (⟨S2x640000, .i32⟩ : BufTy).Contents (Elt Ideal))
    (x2 : (⟨S128x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S256x256, .f32⟩ : BufTy).Contents (Elt Ideal)) (x9 : (⟨S256, .f32⟩ : BufTy).Contents (Elt Ideal)) :
    Read.val_main_v60 (F := Ideal) x0 x1 x2 x3 x4 x5 x6 x7 x8 x9 = agg₂ (Read.val_main_v49 (F := Ideal) x0 x1 x2 x3 x4 x5 x6 x7 x8 x9) x1 := by
  unfold Read.val_main_v60 Read.val_main_v59 Read.val_main_v56
  generalize Read.val_main_v49 (F := Ideal) x0 x1 x2 x3 x4 x5 x6 x7 x8 x9 = h
  unfold agg₂ Read.val_main_v57 Read.val_main_cst_10 Read.val_main_v58 Read.val_main_v55 Read.val_main_v54 Read.val_main_v53
    Read.val_main_v52 Read.val_main_c_9 Read.val_main_v51 Read.val_main_v50 Read.val_main_c_8
  rfl

/-! ## The network stretches

The printed contraction reads its left operand at (row of the output index, summed index) and its right operand at
(summed index, column of the output index); a bias row is read at the output index's column; the rectifier's zero is
the same word on both sides and is never evaluated. -/

/-! ### Update 1: 128 features in, 256 hidden, 256 out -/

/-- The hidden contraction reads the input at (node, summed feature). -/
theorem hid_l0 (r : Fin 100000) (k : Fin 256) (l : Fin 128) : Read.lidx_main_v15 (ix2 r k) l = ix2 r l :=
  funext fun a => Fin.ext (by match a with | ⟨0, _⟩ => rfl | ⟨1, _⟩ => rfl)
/-- The hidden contraction reads the first weight at (summed feature, hidden unit). -/
theorem hid_r0 (r : Fin 100000) (k : Fin 256) (l : Fin 128) : Read.ridx_main_v15 (ix2 r k) l = ix2 l k :=
  funext fun a => Fin.ext (by match a with | ⟨0, _⟩ => rfl | ⟨1, _⟩ => rfl)
/-- The first bias, broadcast over the nodes, is read at the hidden unit. -/
theorem hid_b0 (r : Fin 100000) (k : Fin 256) : Read.idx_main_v16 (Read.idx_main_v17 (ix2 r k)) = ix1 k :=
  funext fun a => Fin.ext (by match a with | ⟨0, _⟩ => rfl)
/-- The output contraction reads the hidden layer at (node, summed hidden unit). -/
theorem out_l0 (r : Fin 100000) (j : Fin 256) (k : Fin 256) : Read.lidx_main_v21 (ix2 r j) k = ix2 r k :=
  funext fun a => Fin.ext (by match a with | ⟨0, _⟩ => rfl | ⟨1, _⟩ => rfl)
/-- The output contraction reads the second weight at (summed hidden unit, output feature). -/
theorem out_r0 (r : Fin 100000) (j : Fin 256) (k : Fin 256) : Read.ridx_main_v21 (ix2 r j) k = ix2 k j :=
  funext fun a => Fin.ext (by match a with | ⟨0, _⟩ => rfl | ⟨1, _⟩ => rfl)
/-- The second bias, broadcast over the nodes, is read at the output feature. -/
theorem out_b0 (r : Fin 100000) (j : Fin 256) : Read.idx_main_v22 (Read.idx_main_v23 (ix2 r j)) = ix1 j :=
  funext fun a => Fin.ext (by match a with | ⟨0, _⟩ => rfl)

/-- First update: 128 features in, 256 hidden, 256 out. Entry `(r, j)` of the stretch is the outer maximum with zero of the sum over
    the hidden unit `k` plus the second bias; each hidden entry is the maximum with zero of the sum over the input
    feature `l` plus the first bias. -/
theorem layer0 (x0 : (⟨S100000x128, .f32⟩ : BufTy).Contents (Elt Ideal)) (x1 : (⟨S2x640000, .i32⟩ : BufTy).Contents (Elt Ideal))
    (x2 : (⟨S128x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal)) :
    Read.val_main_v26 (F := Ideal) x0 x1 x2 x3 x4 x5 =
      Cert.Spec.rows (Read.val_main_v14 (F := Ideal) x0 x1) x2 x3 x4 x5 := by
  funext i
  obtain ⟨r, j, rfl⟩ : ∃ (r : Fin 100000) (j : Fin 256), i = ix2 r j := ⟨i 0, i 1, eq_ix2 i⟩
  rw [Cert.Spec.rows_ix2]
  unfold Cert.Spec.mlp
  -- the outer maximum, sum and contraction at (r, j); the second bias and the zero at their own indices
  rw [Read.val_main_v26_apply, Read.val_main_v24_apply, Read.val_main_v21_apply, Read.val_main_v23_apply,
    Read.val_main_v22_apply, Read.val_main_v25_apply, Read.val_main_cst_2_apply, out_b0]
  beta_reduce
  rw [Ideal.maximumf_def, Ideal.addf_def, Ideal.ofBits_def]
  refine congrArg (fun s => max (s + x5 (ix1 j)) Cert.Spec.z) (Finset.sum_congr rfl fun k _ => ?_)
  -- the term of hidden unit k: the inner maximum, sum and contraction at (r, k)
  rw [out_l0, out_r0, Read.val_main_v20_apply, Read.val_main_v18_apply, Read.val_main_v15_apply, Read.val_main_v17_apply,
    Read.val_main_v16_apply, Read.val_main_v19_apply, Read.val_main_cst_1_apply, hid_b0]
  rw [Ideal.maximumf_def, Ideal.addf_def, Ideal.ofBits_def]
  refine congrArg (fun s => max (s + x3 (ix1 k)) Cert.Spec.z * x4 (ix2 k j)) (Finset.sum_congr rfl fun l _ => ?_)
  -- the term of input feature l
  rw [hid_l0, hid_r0]

/-! ### Update 2: 256 features in, 256 hidden, 256 out -/

/-- The hidden contraction reads the input at (node, summed feature). -/
theorem hid_l1 (r : Fin 100000) (k : Fin 256) (l : Fin 256) : Read.lidx_main_v38 (ix2 r k) l = ix2 r l :=
  funext fun a => Fin.ext (by match a with | ⟨0, _⟩ => rfl | ⟨1, _⟩ => rfl)
/-- The hidden contraction reads the first weight at (summed feature, hidden unit). -/
theorem hid_r1 (r : Fin 100000) (k : Fin 256) (l : Fin 256) : Read.ridx_main_v38 (ix2 r k) l = ix2 l k :=
  funext fun a => Fin.ext (by match a with | ⟨0, _⟩ => rfl | ⟨1, _⟩ => rfl)
/-- The first bias, broadcast over the nodes, is read at the hidden unit. -/
theorem hid_b1 (r : Fin 100000) (k : Fin 256) : Read.idx_main_v39 (Read.idx_main_v40 (ix2 r k)) = ix1 k :=
  funext fun a => Fin.ext (by match a with | ⟨0, _⟩ => rfl)
/-- The output contraction reads the hidden layer at (node, summed hidden unit). -/
theorem out_l1 (r : Fin 100000) (j : Fin 256) (k : Fin 256) : Read.lidx_main_v44 (ix2 r j) k = ix2 r k :=
  funext fun a => Fin.ext (by match a with | ⟨0, _⟩ => rfl | ⟨1, _⟩ => rfl)
/-- The output contraction reads the second weight at (summed hidden unit, output feature). -/
theorem out_r1 (r : Fin 100000) (j : Fin 256) (k : Fin 256) : Read.ridx_main_v44 (ix2 r j) k = ix2 k j :=
  funext fun a => Fin.ext (by match a with | ⟨0, _⟩ => rfl | ⟨1, _⟩ => rfl)
/-- The second bias, broadcast over the nodes, is read at the output feature. -/
theorem out_b1 (r : Fin 100000) (j : Fin 256) : Read.idx_main_v45 (Read.idx_main_v46 (ix2 r j)) = ix1 j :=
  funext fun a => Fin.ext (by match a with | ⟨0, _⟩ => rfl)

/-- Second update: 256 features in, 256 hidden, 256 out. Entry `(r, j)` of the stretch is the outer maximum with zero of the sum over
    the hidden unit `k` plus the second bias; each hidden entry is the maximum with zero of the sum over the input
    feature `l` plus the first bias. -/
theorem layer1 (x0 : (⟨S100000x128, .f32⟩ : BufTy).Contents (Elt Ideal)) (x1 : (⟨S2x640000, .i32⟩ : BufTy).Contents (Elt Ideal))
    (x2 : (⟨S128x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S256x256, .f32⟩ : BufTy).Contents (Elt Ideal)) (x9 : (⟨S256, .f32⟩ : BufTy).Contents (Elt Ideal)) :
    Read.val_main_v49 (F := Ideal) x0 x1 x2 x3 x4 x5 x6 x7 x8 x9 =
      Cert.Spec.rows (Read.val_main_v37 (F := Ideal) x0 x1 x2 x3 x4 x5) x6 x7 x8 x9 := by
  funext i
  obtain ⟨r, j, rfl⟩ : ∃ (r : Fin 100000) (j : Fin 256), i = ix2 r j := ⟨i 0, i 1, eq_ix2 i⟩
  rw [Cert.Spec.rows_ix2]
  unfold Cert.Spec.mlp
  -- the outer maximum, sum and contraction at (r, j); the second bias and the zero at their own indices
  rw [Read.val_main_v49_apply, Read.val_main_v47_apply, Read.val_main_v44_apply, Read.val_main_v46_apply,
    Read.val_main_v45_apply, Read.val_main_v48_apply, Read.val_main_cst_7_apply, out_b1]
  beta_reduce
  rw [Ideal.maximumf_def, Ideal.addf_def, Ideal.ofBits_def]
  refine congrArg (fun s => max (s + x9 (ix1 j)) Cert.Spec.z) (Finset.sum_congr rfl fun k _ => ?_)
  -- the term of hidden unit k: the inner maximum, sum and contraction at (r, k)
  rw [out_l1, out_r1, Read.val_main_v43_apply, Read.val_main_v41_apply, Read.val_main_v38_apply, Read.val_main_v40_apply,
    Read.val_main_v39_apply, Read.val_main_v42_apply, Read.val_main_cst_6_apply, hid_b1]
  rw [Ideal.maximumf_def, Ideal.addf_def, Ideal.ofBits_def]
  refine congrArg (fun s => max (s + x7 (ix1 k)) Cert.Spec.z * x8 (ix2 k j)) (Finset.sum_congr rfl fun l _ => ?_)
  -- the term of input feature l
  rw [hid_l1, hid_r1]

/-! ### Update 3: 256 features in, 128 hidden, 128 out -/

/-- The hidden contraction reads the input at (node, summed feature). -/
theorem hid_l2 (r : Fin 100000) (k : Fin 128) (l : Fin 256) : Read.lidx_main_v61 (ix2 r k) l = ix2 r l :=
  funext fun a => Fin.ext (by match a with | ⟨0, _⟩ => rfl | ⟨1, _⟩ => rfl)
/-- The hidden contraction reads the first weight at (summed feature, hidden unit). -/
theorem hid_r2 (r : Fin 100000) (k : Fin 128) (l : Fin 256) : Read.ridx_main_v61 (ix2 r k) l = ix2 l k :=
  funext fun a => Fin.ext (by match a with | ⟨0, _⟩ => rfl | ⟨1, _⟩ => rfl)
/-- The first bias, broadcast over the nodes, is read at the hidden unit. -/
theorem hid_b2 (r : Fin 100000) (k : Fin 128) : Read.idx_main_v62 (Read.idx_main_v63 (ix2 r k)) = ix1 k :=
  funext fun a => Fin.ext (by match a with | ⟨0, _⟩ => rfl)
/-- The output contraction reads the hidden layer at (node, summed hidden unit). -/
theorem out_l2 (r : Fin 100000) (j : Fin 128) (k : Fin 128) : Read.lidx_main_v67 (ix2 r j) k = ix2 r k :=
  funext fun a => Fin.ext (by match a with | ⟨0, _⟩ => rfl | ⟨1, _⟩ => rfl)
/-- The output contraction reads the second weight at (summed hidden unit, output feature). -/
theorem out_r2 (r : Fin 100000) (j : Fin 128) (k : Fin 128) : Read.ridx_main_v67 (ix2 r j) k = ix2 k j :=
  funext fun a => Fin.ext (by match a with | ⟨0, _⟩ => rfl | ⟨1, _⟩ => rfl)
/-- The second bias, broadcast over the nodes, is read at the output feature. -/
theorem out_b2 (r : Fin 100000) (j : Fin 128) : Read.idx_main_v68 (Read.idx_main_v69 (ix2 r j)) = ix1 j :=
  funext fun a => Fin.ext (by match a with | ⟨0, _⟩ => rfl)

/-- Third update: 256 features in, 128 hidden, 128 out. Entry `(r, j)` of the stretch is the outer maximum with zero of the sum over
    the hidden unit `k` plus the second bias; each hidden entry is the maximum with zero of the sum over the input
    feature `l` plus the first bias. -/
theorem layer2 (x0 : (⟨S100000x128, .f32⟩ : BufTy).Contents (Elt Ideal)) (x1 : (⟨S2x640000, .i32⟩ : BufTy).Contents (Elt Ideal))
    (x2 : (⟨S128x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S256x256, .f32⟩ : BufTy).Contents (Elt Ideal)) (x9 : (⟨S256, .f32⟩ : BufTy).Contents (Elt Ideal))
    (x10 : (⟨S256x128, .f32⟩ : BufTy).Contents (Elt Ideal)) (x11 : (⟨S128, .f32⟩ : BufTy).Contents (Elt Ideal))
    (x12 : (⟨S128x128, .f32⟩ : BufTy).Contents (Elt Ideal)) (x13 : (⟨S128, .f32⟩ : BufTy).Contents (Elt Ideal)) :
    Read.val_main_v72 (F := Ideal) x0 x1 x2 x3 x4 x5 x6 x7 x8 x9 x10 x11 x12 x13 =
      Cert.Spec.rows (Read.val_main_v60 (F := Ideal) x0 x1 x2 x3 x4 x5 x6 x7 x8 x9) x10 x11 x12 x13 := by
  funext i
  obtain ⟨r, j, rfl⟩ : ∃ (r : Fin 100000) (j : Fin 128), i = ix2 r j := ⟨i 0, i 1, eq_ix2 i⟩
  rw [Cert.Spec.rows_ix2]
  unfold Cert.Spec.mlp
  -- the outer maximum, sum and contraction at (r, j); the second bias and the zero at their own indices
  rw [Read.val_main_v72_apply, Read.val_main_v70_apply, Read.val_main_v67_apply, Read.val_main_v69_apply,
    Read.val_main_v68_apply, Read.val_main_v71_apply, Read.val_main_cst_12_apply, out_b2]
  beta_reduce
  rw [Ideal.maximumf_def, Ideal.addf_def, Ideal.ofBits_def]
  refine congrArg (fun s => max (s + x13 (ix1 j)) Cert.Spec.z) (Finset.sum_congr rfl fun k _ => ?_)
  -- the term of hidden unit k: the inner maximum, sum and contraction at (r, k)
  rw [out_l2, out_r2, Read.val_main_v66_apply, Read.val_main_v64_apply, Read.val_main_v61_apply, Read.val_main_v63_apply,
    Read.val_main_v62_apply, Read.val_main_v65_apply, Read.val_main_cst_11_apply, hid_b2]
  rw [Ideal.maximumf_def, Ideal.addf_def, Ideal.ofBits_def]
  refine congrArg (fun s => max (s + x11 (ix1 k)) Cert.Spec.z * x12 (ix2 k j)) (Finset.sum_congr rfl fun l _ => ?_)
  -- the term of input feature l
  rw [hid_l2, hid_r2]

/-! ## The whole program -/

/-- The reference's output is the three updates in sequence: neighbour sum, then the row network, three times. -/
theorem value (x0 : (⟨S100000x128, .f32⟩ : BufTy).Contents (Elt Ideal)) (x1 : (⟨S2x640000, .i32⟩ : BufTy).Contents (Elt Ideal))
    (x2 : (⟨S128x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S256x256, .f32⟩ : BufTy).Contents (Elt Ideal)) (x9 : (⟨S256, .f32⟩ : BufTy).Contents (Elt Ideal))
    (x10 : (⟨S256x128, .f32⟩ : BufTy).Contents (Elt Ideal)) (x11 : (⟨S128, .f32⟩ : BufTy).Contents (Elt Ideal))
    (x12 : (⟨S128x128, .f32⟩ : BufTy).Contents (Elt Ideal)) (x13 : (⟨S128, .f32⟩ : BufTy).Contents (Elt Ideal)) :
    Read.val_main_v72 (F := Ideal) x0 x1 x2 x3 x4 x5 x6 x7 x8 x9 x10 x11 x12 x13 =
      Cert.Spec.G agg₁ agg₂ x0 x1 x2 x3 x4 x5 x6 x7 x8 x9 x10 x11 x12 x13 := by
  unfold Cert.Spec.G agg₁
  rw [layer2, val_main_v60_eq, layer1, val_main_v37_eq, layer0]

end Cert.RefValue

end
-- ==== Proof.lean ====
/-
  The kernel and its reference compute one function of their arguments over the extended reals.

  Both update a node-feature array three times. An update adds to every node's row the rows of its in-neighbours and then
  sends every row `h` through `max (max (h · Wa + ba) 0 · Wb + bb) 0`. The neighbour sum (gather the edges' source rows,
  sum them into the edges' target rows, add the array itself) is the same sequence of host operations in both programs and
  is never opened: it is carried as one function, and the two programs' spellings of it are identified at the end
  (`neighbours₁_eq`, `neighbours₂_eq`). The row network is where the programs differ: the kernel walks the rows in 50
  blocks of 2000, multiplies each block by the whole weight matrices into zero accumulators and narrows the operands on
  the way, while the reference contracts the whole arrays. Over the extended reals the narrowing is the identity, a
  product into a zero accumulator is the plain contraction, and a block's row is a row of the array, so each launch is
  the row network of every row (Proof/Launch0 … Launch2 over Proof/BlockProduct), as is each network stretch of the
  reference (Proof/RefValue). Proof/HostStretch reads the host operations between the launches, Proof/KernelRun names
  the kernel's final memory, Proof/KernelValue chains the three updates into `Cert.Spec.G`, the function Proof/Spec
  states. No step needs the inputs to be finite: only equal sums of equal products are compared.
  The kernel's idealization rewrote nothing, so it preserves the kernel by the empty conjunction; the three frames are the
  generated frames and the reference's generated run.
-/
import proofs.«140403_j55920474194401_1_alg».proof.Defs
import proofs.«140403_j55920474194401_1_alg».proof.Proof.Gen.Kernel
import proofs.«140403_j55920474194401_1_alg».proof.Proof.Gen.Kernel.Frame
import proofs.«140403_j55920474194401_1_alg».proof.Proof.Gen.KernelIdeal
import proofs.«140403_j55920474194401_1_alg».proof.Proof.Gen.KernelIdeal.Frame
import proofs.«140403_j55920474194401_1_alg».proof.Proof.Gen.ReferenceIdeal
import proofs.«140403_j55920474194401_1_alg».proof.Proof.Gen.Pre_finite_inputs
import proofs.«140403_j55920474194401_1_alg».proof.Proof.Gen.ReferenceIdeal.Run
import proofs.«140403_j55920474194401_1_alg».proof.Proof.Gen.ReferenceIdeal.Read
import proofs.«140403_j55920474194401_1_alg».proof.Proof.KernelValue
import proofs.«140403_j55920474194401_1_alg».proof.Proof.RefValue
import Idealize.ShloMosaic.Adequacy
import Idealize.ShloMosaic.Init

noncomputable section

namespace Cert.Proof

open Idealize.ShloMosaic Idealize.SL.Sem

/-! ## The two programs' neighbour sums are one function -/

/-- The edge list's source row, in either program's spelling. -/
theorem sources_eq (e : (⟨Cert.KernelIdeal.S2x640000, .i32⟩ : BufTy).Contents (Elt Ideal)) :
    Cert.KernelValue.sources e = Cert.ReferenceIdeal.Read.val_main_v1 (F := Ideal) e := rfl

/-- The edge list's target row, in either program's spelling. -/
theorem targets_eq (e : (⟨Cert.KernelIdeal.S2x640000, .i32⟩ : BufTy).Contents (Elt Ideal)) :
    Cert.KernelValue.targets e = Cert.ReferenceIdeal.Read.val_main_v3 (F := Ideal) e := rfl

/-- On 128 features both programs form the neighbour sum by the same operations of the same operands. -/
theorem neighbours₁_eq : Cert.KernelValue.neighbours₁ = Cert.RefValue.agg₁ := by
  funext x e
  unfold Cert.KernelValue.neighbours₁ Cert.KernelValue.sumNeighbours1 Cert.RefValue.agg₁
  rw [sources_eq, targets_eq]
  rfl

/-- On 256 features likewise. -/
theorem neighbours₂_eq : Cert.KernelValue.neighbours₂ = Cert.RefValue.agg₂ := by
  funext h e
  unfold Cert.KernelValue.neighbours₂ Cert.KernelValue.sumNeighbours2 Cert.RefValue.agg₂
  rw [sources_eq, targets_eq]
  rfl

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- From memories that agree on the arguments both programs end with the three-update function of those arguments in
    their result buffer. -/
theorem algebraic : Cert.algebraic_KernelIdeal_ReferenceIdeal := by
  intro m ρ m' ρ' _ hagree
  refine ⟨_, Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.Read.val_main_v72_eq, Cert.RefValue.value, h0, h1, h2, h3, h4, h5, h6, h7, h8, h9, h10, h11, h12, h13, neighbours₁_eq, neighbours₂_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
